-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S3x8192x128 : Shape := ⟨3, ![3, 8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S3x8192x128 : S_.BroadcastsInDim S3x8192x128 (![] : Fin 0 → Fin S3x8192x128.rank)
  reducesTo_S3x8192x128_S_d0_1_2 : S3x8192x128.ReducesTo [0, 1, 2] S_

variable [Facts]

def fn {F : FTy → Type} [FloatOps F] (main_arg0 : FVec F S8192x128 .f32) (main_arg1 : FVec F S8192x8192 .f32) (main_arg2 : FVec F S3x8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S3x8192x128 .f32 := Host.absf main_arg2
  let main_cst_2 : FVec F S_ .f32 := constant S_ .f32 0x7F800000#32
  let main_v10 : FVec F S3x8192x128 .f32 := broadcastInDim S3x8192x128 ![] bcast_S_S3x8192x128 main_cst_2
  let main_v11 : IVec S3x8192x128 1 := cmpf .olt main_v9 main_v10
  let main_c_3 : IVec S_ 1 := constantI S_ 1 1#1
  let main_v12 : IVec S_ 1 := (fun x v => Host.reduce IntOp.andi x v reducesTo_S3x8192x128_S_d0_1_2 h_S_) main_v11 main_c_3
  let main_v13 : IVec S_ 1 := andi main_v8 main_v12
  main_v13
-- ==== Kernel.lean ====
abbrev S8192x128 : Shape := ⟨2, ![8192, 128]⟩
abbrev S8192x8192 : Shape := ⟨2, ![8192, 8192]⟩
abbrev S3x8192x128 : Shape := ⟨3, ![3, 8192, 128]⟩
abbrev S_ : Shape := ⟨0, ![]⟩
abbrev S8192 : Shape := ⟨1, ![8192]⟩
abbrev S8192x1 : Shape := ⟨2, ![8192, 1]⟩
abbrev S3x8192 : Shape := ⟨2, ![3, 8192]⟩
abbrev S3x8192x1 : Shape := ⟨3, ![3, 8192, 1]⟩
abbrev S1024x128 : Shape := ⟨2, ![1024, 128]⟩
abbrev S1024x1024 : Shape := ⟨2, ![1024, 1024]⟩
abbrev S3x1024 : Shape := ⟨2, ![3, 1024]⟩
abbrev S1x1024x128 : Shape := ⟨3, ![1, 1024, 128]⟩
abbrev S128x1024 : Shape := ⟨2, ![128, 1024]⟩
abbrev S1024 : Shape := ⟨1, ![1024]⟩
abbrev S1x1024 : Shape := ⟨2, ![1, 1024]⟩
abbrev S1x8192x128 : Shape := ⟨3, ![1, 8192, 128]⟩

abbrev nBuf : Space → Nat
  | .hbm => 43
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S3x8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .bf16⟩
  | .hbm, ⟨14, _⟩ => ⟨S3x8192x128, .f32⟩
  | .hbm, ⟨15, _⟩ => ⟨S_, .f32⟩
  | .hbm, ⟨16, _⟩ => ⟨S3x8192, .f32⟩
  | .hbm, ⟨17, _⟩ => ⟨S3x8192x1, .f32⟩
  | .hbm, ⟨18, _⟩ => ⟨S3x8192x1, .f32⟩
  | .hbm, ⟨19, _⟩ => ⟨S_, .f32⟩
  | .hbm, ⟨20, _⟩ => ⟨S3x8192x1, .f32⟩
  | .hbm, ⟨21, _⟩ => ⟨S3x8192x1, .f32⟩
  | .hbm, ⟨22, _⟩ => ⟨S3x8192x128, .f32⟩
  | .hbm, ⟨23, _⟩ => ⟨S3x8192x128, .f32⟩
  | .hbm, ⟨24, _⟩ => ⟨S3x8192x128, .bf16⟩
  | .hbm, ⟨25, _⟩ => ⟨S3x8192, .f32⟩
  | .hbm, ⟨26, _⟩ => ⟨S8192x128, .f32⟩
  | .hbm, ⟨27, _⟩ => ⟨S3x8192x128, .f32⟩
  | .hbm, ⟨28, _⟩ => ⟨S1x8192x128, .f32⟩
  | .hbm, ⟨29, _⟩ => ⟨S3x8192x128, .f32⟩
  | .hbm, ⟨30, _⟩ => ⟨S3x8192x128, .f32⟩
  | .hbm, ⟨31, _⟩ => ⟨S_, .f32⟩
  | .hbm, ⟨32, _⟩ => ⟨S3x8192, .f32⟩
  | .hbm, ⟨33, _⟩ => ⟨S_, .f32⟩
  | .hbm, ⟨34, _⟩ => ⟨S3x8192, .f32⟩
  | .hbm, ⟨35, _⟩ => ⟨S3x8192, .f32⟩
  | .hbm, ⟨36, _⟩ => ⟨S3x8192, .f32⟩
  | .hbm, ⟨37, _⟩ => ⟨S3x8192, .f32⟩
  | .hbm, ⟨38, _⟩ => ⟨S3x8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x1024, .f32⟩
  | .local _ .vmem, ⟨3, _⟩ => ⟨S1024x1024, .f32⟩
  | .local _ .vmem, ⟨4, _⟩ => ⟨S3x8192x128, .bf16⟩
  | .local _ .vmem, ⟨5, _⟩ => ⟨S3x1024, .f32⟩
  | .local _ .vmem, ⟨6, _⟩ => ⟨S3x1024, .f32⟩
  | .local _ .vmem, ⟨7, _⟩ => ⟨S3x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v8 : BitVec 32 := Scalar.muli arg1 c1024_i32
  v8
def k0_off1 (i : grid0.Coords) : Fin 3 → Nat :=
  let c0_4 : Index := 0#32
  let arg1 : BitVec 32 := BitVec.ofNat 32 (i 1).val
  let c1024_i32 : BitVec 32 := 1024#32
  let v8 : BitVec 32 := Scalar.muli arg1 c1024_i32
  let v9 : BitVec 32 := v8
  let v10 : Index := Scalar.indexCast v9
  let c0_5 : Index := 0#32
  ![0, v10.toNat, 0]
def k0_off2 (i : grid0.Coords) : Fin 3 → Nat :=
  let c1 : Index := 1#32
  let arg1 : BitVec 32 := BitVec.ofNat 32 (i 1).val
  let c1024_i32 : BitVec 32 := 1024#32
  let v8 : BitVec 32 := Scalar.muli arg1 c1024_i32
  let v9 : BitVec 32 := v8
  let v26 : Index := Scalar.indexCast v9
  let c0_13 : Index := 0#32
  ![1, v26.toNat, 0]
def k0_off3 (i : grid0.Coords) : Fin 3 → Nat :=
  let c2 : Index := 2#32
  let arg1 : BitVec 32 := BitVec.ofNat 32 (i 1).val
  let c1024_i32 : BitVec 32 := 1024#32
  let v8 : BitVec 32 := Scalar.muli arg1 c1024_i32
  let v9 : BitVec 32 := v8
  let v42 : Index := Scalar.indexCast v9
  let c0_21 : Index := 0#32
  ![2, v42.toNat, 0]
def k0_cond2 (i : grid0.Coords) : BitVec 1 :=
  let arg1 : BitVec 32 := BitVec.ofNat 32 (i 1).val
  let c7_i32 : BitVec 32 := 7#32
  let v58 : BitVec 1 := Scalar.cmpi .eq arg1 c7_i32
  let v59 : BitVec 32 := Scalar.extui v58
  let c0_i32_29 : BitVec 32 := 0#32
  let v60 : BitVec 1 := Scalar.cmpi .ne v59 c0_i32_29
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  reducesTo_S3x8192x128_S3x8192_d2 : S3x8192x128.ReducesTo [2] S3x8192
  bcast_S3x8192_S3x8192x1_0_1 : S3x8192.BroadcastsInDim S3x8192x1 (![0, 1] : Fin 2 → Fin S3x8192x1.rank)
  bcast_S_S3x8192x1 : S_.BroadcastsInDim S3x8192x1 (![] : Fin 0 → Fin S3x8192x1.rank)
  bcast_S3x8192x1_S3x8192x128_0_1_2 : S3x8192x1.BroadcastsInDim S3x8192x128 (![0, 1, 2] : Fin 3 → Fin S3x8192x128.rank)
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  h_S1x1024x128 : 0 < S1x1024x128.numel
  shapeCasts_S1x1024x128_S1024x128 : S1x1024x128.ShapeCasts S1024x128
  transposes_S1024x128_p1_0_S128x1024 : S1024x128.Transposes [1, 0] S128x1024
  reduces_S1024x1024_S1024 : S1024x1024.Reduces [1] S1024
  inb_S3x1024_S1x1024_0_0 : ∀ a, (![0, 0] : Fin 2 → Nat) a + S1x1024.size a ≤ S3x1024.size a
  h_S1x1024 : 0 < S1x1024.numel
  shapeCasts_S1x1024_S1024 : S1x1024.ShapeCasts S1024
  shapeCasts_S1024_S1x1024 : S1024.ShapeCasts S1x1024
  inb_S3x1024_S1x1024_1_0 : ∀ a, (![1, 0] : Fin 2 → Nat) a + S1x1024.size a ≤ S3x1024.size a
  inb_S3x1024_S1x1024_2_0 : ∀ a, (![2, 0] : Fin 2 → Nat) a + S1x1024.size a ≤ S3x1024.size a
  bcast_S8192x128_S1x8192x128_1_2 : S8192x128.BroadcastsInDim S1x8192x128 (![1, 2] : Fin 2 → Fin S1x8192x128.rank)
  bcast_S1x8192x128_S3x8192x128_0_1_2 : S1x8192x128.BroadcastsInDim S3x8192x128 (![0, 1, 2] : Fin 3 → Fin S3x8192x128.rank)
  bcast_S_S3x8192 : S_.BroadcastsInDim S3x8192 (![] : Fin 0 → Fin S3x8192.rank)
  reducesTo_S3x8192_S_d0_1 : S3x8192.ReducesTo [0, 1] S_
  dot_S1024x128_S128x1024_S1024x1024_1_0_0_1_n_n_wf : DotDims.WF S1024x128 S128x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x128.size a ≤ S3x8192x128.size a
  k0_off2_inb : ∀ i : grid0.Coords, ∀ a, (k0_off2 i) a + S1x1024x128.size a ≤ S3x8192x128.size a
  k0_off3_inb : ∀ i : grid0.Coords, ∀ a, (k0_off3 i) a + S1x1024x128.size a ≤ S3x8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x8192x128.size a ≤ S3x8192x128.size a
  hwx0_2 : ∀ i : grid0.Coords, EltTy.bits .bf16 = 32 ∨ (Rect.block (s := S3x8192x128) S3x8192x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x1024.size a ≤ S3x8192.size a
  hwx0_3 : ∀ i : grid0.Coords, EltTy.bits .f32 = 32 ∨ (Rect.block (s := S3x8192) S3x1024.size (cc0_transform_3 i) (hinb0_3 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v5) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S3x8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S3x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S3x8192x128 : Shape := ⟨3, ![3, 8192, 128]⟩
abbrev S_ : Shape := ⟨0, ![]⟩
abbrev S8192 : Shape := ⟨1, ![8192]⟩
abbrev S8192x1 : Shape := ⟨2, ![8192, 1]⟩
abbrev S3x8192 : Shape := ⟨2, ![3, 8192]⟩
abbrev S3x8192x1 : Shape := ⟨3, ![3, 8192, 1]⟩
abbrev S3x8192x8192 : Shape := ⟨3, ![3, 8192, 8192]⟩
abbrev S8192x2 : Shape := ⟨2, ![8192, 2]⟩
abbrev S1x8192x8192 : Shape := ⟨3, ![1, 8192, 8192]⟩

abbrev nBuf : Space → Nat
  | .hbm => 70
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S3x8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S3x8192x128, .f32⟩
  | .hbm, ⟨14, _⟩ => ⟨S_, .f32⟩
  | .hbm, ⟨15, _⟩ => ⟨S3x8192, .f32⟩
  | .hbm, ⟨16, _⟩ => ⟨S3x8192x1, .f32⟩
  | .hbm, ⟨17, _⟩ => ⟨S3x8192x1, .f32⟩
  | .hbm, ⟨18, _⟩ => ⟨S_, .f32⟩
  | .hbm, ⟨19, _⟩ => ⟨S3x8192x1, .f32⟩
  | .hbm, ⟨20, _⟩ => ⟨S3x8192x1, .f32⟩
  | .hbm, ⟨21, _⟩ => ⟨S3x8192x128, .f32⟩
  | .hbm, ⟨22, _⟩ => ⟨S3x8192x128, .f32⟩
  | .hbm, ⟨23, _⟩ => ⟨S3x8192x8192, .f32⟩
  | .hbm, ⟨24, _⟩ => ⟨S3x8192x8192, .f32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192x1, .i32⟩
  | .hbm, ⟨43, _⟩ => ⟨S8192x2, .i32⟩
  | .hbm, ⟨44, _⟩ => ⟨S3x8192, .f32⟩
  | .hbm, ⟨45, _⟩ => ⟨S_, .f32⟩
  | .hbm, ⟨46, _⟩ => ⟨S3x8192, .f32⟩
  | .hbm, ⟨47, _⟩ => ⟨S3x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S3x8192x8192, .f32⟩
  | .hbm, ⟨53, _⟩ => ⟨S3x8192x8192, .f32⟩
  | .hbm, ⟨54, _⟩ => ⟨S3x8192x8192, .f32⟩
  | .hbm, ⟨55, _⟩ => ⟨S1x8192x8192, .f32⟩
  | .hbm, ⟨56, _⟩ => ⟨S3x8192x8192, .f32⟩
  | .hbm, ⟨57, _⟩ => ⟨S3x8192x8192, .f32⟩
  | .hbm, ⟨58, _⟩ => ⟨S_, .f32⟩
  | .hbm, ⟨59, _⟩ => ⟨S3x8192, .f32⟩
  | .hbm, ⟨60, _⟩ => ⟨S_, .f32⟩
  | .hbm, ⟨61, _⟩ => ⟨S3x8192, .f32⟩
  | .hbm, ⟨62, _⟩ => ⟨S3x8192, .f32⟩
  | .hbm, ⟨63, _⟩ => ⟨S3x8192, .f32⟩
  | .hbm, ⟨64, _⟩ => ⟨S3x8192, .f32⟩
  | .hbm, ⟨65, _⟩ => ⟨S3x8192, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call2_v0 : Ref sig .tc := ⟨.hbm, 25, rfl⟩
abbrev main_call2_v1 : Ref sig .tc := ⟨.hbm, 26, rfl⟩
abbrev main_call2_c : Ref sig .tc := ⟨.hbm, 27, rfl⟩
abbrev main_call2_v2 : Ref sig .tc := ⟨.hbm, 28, rfl⟩
abbrev main_call2_v3 : Ref sig .tc := ⟨.hbm, 29, rfl⟩
abbrev main_call2_c_0 : Ref sig .tc := ⟨.hbm, 30, rfl⟩
abbrev main_call2_v4 : Ref sig .tc := ⟨.hbm, 31, rfl⟩
abbrev main_call2_v5 : Ref sig .tc := ⟨.hbm, 32, rfl⟩
abbrev main_call2_v6 : Ref sig .tc := ⟨.hbm, 33, rfl⟩
abbrev main_call2_c_1 : Ref sig .tc := ⟨.hbm, 34, rfl⟩
abbrev main_call2_v7 : Ref sig .tc := ⟨.hbm, 35, rfl⟩
abbrev main_call2_v8 : Ref sig .tc := ⟨.hbm, 36, rfl⟩
abbrev main_call2_c_2 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_v12 : Ref sig .tc := ⟨.hbm, 41, rfl⟩
abbrev main_call2_v13 : Ref sig .tc := ⟨.hbm, 42, rfl⟩
abbrev main_call2_v14 : Ref sig .tc := ⟨.hbm, 43, rfl⟩
abbrev main_v12 : Ref sig .tc := ⟨.hbm, 44, rfl⟩
abbrev main_cst_1 : Ref sig .tc := ⟨.hbm, 45, rfl⟩
abbrev main_v13 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_cst_3 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_4 : Ref sig .tc := ⟨.hbm, 58, rfl⟩
abbrev main_v23 : Ref sig .tc := ⟨.hbm, 59, rfl⟩
abbrev main_cst_5 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_6 : Ref sig .tc := ⟨.hbm, 66, rfl⟩
abbrev main_v29 : Ref sig .tc := ⟨.hbm, 67, rfl⟩
abbrev main_cst_7 : Ref sig .tc := ⟨.hbm, 68, rfl⟩
abbrev main_v30 : Ref sig .tc := ⟨.hbm, 69, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  reducesTo_S3x8192x128_S3x8192_d2 : S3x8192x128.ReducesTo [2] S3x8192
  bcast_S3x8192_S3x8192x1_0_1 : S3x8192.BroadcastsInDim S3x8192x1 (![0, 1] : Fin 2 → Fin S3x8192x1.rank)
  bcast_S_S3x8192x1 : S_.BroadcastsInDim S3x8192x1 (![] : Fin 0 → Fin S3x8192x1.rank)
  bcast_S3x8192x1_S3x8192x128_0_1_2 : S3x8192x1.BroadcastsInDim S3x8192x128 (![0, 1, 2] : Fin 3 → Fin S3x8192x128.rank)
  transposes_S3x8192x8192_S3x8192x8192_0_2_1 : S3x8192x8192.Transposes [0, 2, 1] S3x8192x8192
  bcast_S_S8192 : S_.BroadcastsInDim S8192 (![] : Fin 0 → Fin S8192.rank)
  concatenates_S8192x1_S8192x1_S8192x2_d1 : Shape.Concatenates [S8192x1, S8192x1] S8192x2 1
  bcast_S_S3x8192 : S_.BroadcastsInDim S3x8192 (![] : Fin 0 → Fin S3x8192.rank)
  bcast_S_S8192x8192 : S_.BroadcastsInDim S8192x8192 (![] : Fin 0 → Fin S8192x8192.rank)
  bcast_S_S3x8192x8192 : S_.BroadcastsInDim S3x8192x8192 (![] : Fin 0 → Fin S3x8192x8192.rank)
  bcast_S8192x8192_S1x8192x8192_1_2 : S8192x8192.BroadcastsInDim S1x8192x8192 (![1, 2] : Fin 2 → Fin S1x8192x8192.rank)
  bcast_S1x8192x8192_S3x8192x8192_0_1_2 : S1x8192x8192.BroadcastsInDim S3x8192x8192 (![0, 1, 2] : Fin 3 → Fin S3x8192x8192.rank)
  reducesTo_S3x8192x8192_S3x8192_d2 : S3x8192x8192.ReducesTo [2] S3x8192
  reducesTo_S3x8192_S_d0_1 : S3x8192.ReducesTo [0, 1] S_
  dot_S3x8192x128_S8192x128_S3x8192x8192_2_1_01_0_n_n_wf : DotDims.WF S3x8192x128 S8192x128 S3x8192x8192 [2] [1] [0, 1] [0] [] []
  gather_S3x8192x8192_S8192x2_S3x8192_0_12_n_n_12_1_311_wf : GatherDims.WF S3x8192x8192 S8192x2 S3x8192 [0] [1, 2] [] [1, 2] [] 1 ![3, 1, 1]

variable [Facts₀]

def dot_S3x8192x128_S8192x128_S3x8192x8192_2_1_01_0_n_n : DotDims S3x8192x128 S8192x128 S3x8192x8192 where
  lhsContracting := [2]
  rhsContracting := [1]
  lhsNonContracting := [0, 1]
  rhsNonContracting := [0]
  lhsBatch := []
  rhsBatch := []
  wf := dot_S3x8192x128_S8192x128_S3x8192x8192_2_1_01_0_n_n_wf
def gather_S3x8192x8192_S8192x2_S3x8192_0_12_n_n_12_1_311 : GatherDims S3x8192x8192 S8192x2 S3x8192 where
  offsetDims := [0]
  collapsedSliceDims := [1, 2]
  operandBatchingDims := []
  startIndicesBatchingDims := []
  startIndexMap := [1, 2]
  indexVectorDim := 1
  sliceSizes := ![3, 1, 1]
  wf := gather_S3x8192x8192_S8192x2_S3x8192_0_12_n_n_12_1_311_wf

class Facts : Prop extends Facts₀ where

variable [Facts]
-- ==== Proof.LibSumRuns.lean ====
/-
  A sum of `m · n` terms taken in order is the sum of its `m` consecutive runs of `n` terms: term `s · n + r` is the
  `r`-th term of run `s`. (What joins a contraction taken whole with the same contraction taken tile by tile.)
-/
import Mathlib.Algebra.BigOperators.Fin
import Mathlib.Logic.Equiv.Fin.Basic

open scoped BigOperators

namespace Cert.Lib.SumRuns

/-- Term `r` of run `s` is below `m · n`. -/
theorem run_lt {m n : ℕ} (s : Fin m) (r : Fin n) : s.val * n + r.val < m * n := by
  have h1 : (s.val + 1) * n ≤ m * n := Nat.mul_le_mul_right n s.isLt
  have h2 : r.val < n := r.isLt
  rw [Nat.succ_mul] at h1
  omega

/-- A sum over `Fin (m * n)` is the double sum over the runs `s : Fin m` and the places `r : Fin n` in a run, the term at
    `s · n + r`. -/
theorem sum_runs {M : Type*} [AddCommMonoid M] (m n : ℕ) (g : Fin (m * n) → M) :
    ∑ k : Fin (m * n), g k = ∑ s : Fin m, ∑ r : Fin n, g ⟨s.val * n + r.val, run_lt s r⟩ := by
  rw [← Equiv.sum_comp (finProdFinEquiv (m := m) (n := n)) g, Fintype.sum_prod_type]
  refine Finset.sum_congr rfl fun s _ => Finset.sum_congr rfl fun r _ => congrArg g (Fin.ext ?_)
  show r.val + n * s.val = s.val * n + r.val
  rw [Nat.mul_comm, Nat.add_comm]

end Cert.Lib.SumRuns
-- ==== Proof.Loss.lean ====
/-
  The quantities of the contrastive loss, as functions of two arrays of rows (the consensus rows `hc`, one per
  sample, and the view rows `hv`, one per view and sample) and the matrix `s` of pairwise weights.

  For view `v` and samples `n`, `m` the similarity is the inner product of row `n` of `hc` with row `(v, m)` of `hv`;
  the term of the pair is `(1 - s n m) · exp (2 · similarity)`; the denominator of `(v, n)` is the sum of the terms over all
  `m`, kept above a small positive floor; the positive of `(v, n)` is the similarity of `n` with itself.

  The 8192 columns `m` are taken in 8 consecutive tiles of 1024: `tile` is the sum of one tile's terms, `pref k` the sum of
  the first `k` tiles. The sum over all columns is the sum of the eight tiles (`rowSum_eq_pref`): addition of extended
  reals is commutative and associative, so no finiteness is needed to regroup.
-/
import Idealize.ShloMosaic.PureOps.Ideal
import Idealize.ShloMosaic.PureOps.Ideal.Laws
import Idealize.ShloMosaic.Lib.ValueIdx
import proofs.«150340_j34299608826247_2_alg».proof.Proof.LibSumRuns

noncomputable section

namespace Cert.Loss

open Idealize.ShloMosaic Idealize.ShloMosaic.ValueIdx
open scoped BigOperators

/-- The consensus rows: 8192 samples of 128 features. -/
abbrev RowsC : Shape := ⟨2, ![8192, 128]⟩
/-- The view rows: 3 views of 8192 samples of 128 features. -/
abbrev RowsV : Shape := ⟨3, ![3, 8192, 128]⟩
/-- The pairwise weights. -/
abbrev Pairs : Shape := ⟨2, ![8192, 8192]⟩
/-- One number per view and sample. -/
abbrev PerRow : Shape := ⟨2, ![3, 8192]⟩

/-- The float words the two programs spell, as the extended reals they denote: 1, 2, 1/2 and the floor. -/
def one : EReal := Ideal.ofBits .f32 0x3F800000#32
def two : EReal := Ideal.ofBits .f32 0x40000000#32
def half : EReal := Ideal.ofBits .f32 0x3F000000#32
def floor : EReal := Ideal.ofBits .f32 0x3089705F#32

/-- The word of 2.0 denotes the real 2, -/
theorem two_eq : two = ((2 : ℝ) : EReal) := by
  unfold two; simp [Ideal.ofBits, Ideal.ieee, -EReal.coe_mul]; norm_num

/-- and the word of 0.5 the real 1/2. -/
theorem half_eq : half = ((2⁻¹ : ℝ) : EReal) := by
  unfold half; simp [Ideal.ofBits, Ideal.ieee, -EReal.coe_mul]; norm_num

/-- Dividing by one half is doubling, on every extended real (the infinities included). -/
theorem div_half (x : EReal) : Ideal.div x half = x * two := by
  rw [half_eq, two_eq, Ideal.div_coe (by norm_num : (2⁻¹ : ℝ) ≠ 0)]
  norm_num

variable (hc : RowsC.Idx → EReal) (hv : RowsV.Idx → EReal) (s : Pairs.Idx → EReal)

/-- The similarity of sample `n`'s consensus row with sample `m`'s row in view `v`. -/
def sim (v : Fin 3) (n m : Fin 8192) : EReal := ∑ d : Fin 128, hc (ix2 n d) * hv (ix3 v m d)

/-- The term of the pair `(n, m)` in view `v`. -/
def term (v : Fin 3) (n m : Fin 8192) : EReal := (one - s (ix2 n m)) * Ideal.exp (sim hc hv v n m * two)

/-- The sum of the terms over every column. -/
def rowSum (v : Fin 3) (n : Fin 8192) : EReal := ∑ m : Fin 8192, term hc hv s v n m

/-- The denominator: the row's sum, kept above the floor. -/
def denom : PerRow.Idx → EReal := fun i => max (rowSum hc hv s (i 0) (i 1)) floor

/-- The positive: the similarity of a sample with itself. -/
def positive : PerRow.Idx → EReal := fun i => sim hc hv (i 0) (i 1) (i 1)

/-- Column `r` of tile `j`. -/
abbrev col (j : Fin 8) (r : Fin 1024) : Fin 8192 := ⟨j.val * 1024 + r.val, Cert.Lib.SumRuns.run_lt (m := 8) (n := 1024) j r⟩

/-- The sum of the terms of tile `j` (of no term past the last tile). -/
def tile (v : Fin 3) (n : Fin 8192) (j : ℕ) : EReal :=
  if h : j < 8 then ∑ r : Fin 1024, term hc hv s v n (col ⟨j, h⟩ r) else 0

/-- The sum of the first `k` tiles. -/
def pref (v : Fin 3) (n : Fin 8192) (k : ℕ) : EReal := ∑ j ∈ Finset.range k, tile hc hv s v n j

theorem pref_zero (v : Fin 3) (n : Fin 8192) : pref hc hv s v n 0 = 0 := by
  unfold pref; rw [Finset.range_zero, Finset.sum_empty]

theorem pref_succ (v : Fin 3) (n : Fin 8192) (k : ℕ) :
    pref hc hv s v n (k + 1) = pref hc hv s v n k + tile hc hv s v n k := by
  unfold pref; rw [Finset.sum_range_succ]

/-- The row's sum is the sum of its eight tiles. -/
theorem rowSum_eq_pref (v : Fin 3) (n : Fin 8192) : rowSum hc hv s v n = pref hc hv s v n 8 := by
  unfold rowSum pref
  rw [Finset.sum_range]
  have h := Cert.Lib.SumRuns.sum_runs (M := EReal) 8 1024 (fun k : Fin (8 * 1024) => term hc hv s v n k)
  refine h.trans (Finset.sum_congr rfl fun j _ => ?_)
  unfold tile
  rw [dif_pos j.isLt]

end Cert.Loss

end
-- ==== Proof.RowUpdate.lean ====
/-
  What one grid point adds to one row of the accumulator, read at an index.

  The body updates the three rows of the [3, 1024] accumulator one after the other, each by the same arithmetic: from the
  block `x0` of 1024 consensus rows, the block `x1` of 1024 × 1024 weights, the slab of 1024 rows of one view and the row's
  previous contents, the new row is, at lane `r`,

      previous r + ∑ over the 1024 columns m of (1 - x1 r m) · exp (2 · ∑ over the 128 features d of x0 r d · slab m d).

  The three printed payloads are one term (`row1_eq`, `row2_eq`), read at a lane in `row_apply`; the reset stores zeros
  (`reset_apply`) and the last point's store keeps the accumulator above the floor (`keep_apply`).
-/
import proofs.«150340_j34299608826247_2_alg».proof.Proof.Gen.KernelIdeal.Skeleton
import proofs.«150340_j34299608826247_2_alg».proof.Proof.Loss
import Idealize.ShloMosaic.Lib.ValueIdx
import Idealize.ShloMosaic.Lib.Pipeline.Value
import Idealize.ShloMosaic.PureOps.Ideal.Laws

noncomputable section

namespace Cert.KernelIdeal.RowUpdate

open Cert.KernelIdeal Cert.KernelIdeal.Gen Idealize.ShloMosaic Idealize.ShloMosaic.ValueIdx
open scoped BigOperators

section AnyValues
variable {F : FTy → Type} [FloatOps F]

/-- The second row's update is the first row's arithmetic on the second view's slab. -/
theorem row1_eq (x0 : Vec F S1024x128 .bf16) (x1 : Vec F S1024x1024 .f32) (slab : Vec F S1x1024x128 .bf16)
    (prev : Vec F S1x1024 .f32) : k0_pay1 (k0_pay8 x0 x1 slab) prev = k0_pay7 x0 x1 slab prev := rfl

/-- The third row's update likewise. -/
theorem row2_eq (x0 : Vec F S1024x128 .bf16) (x1 : Vec F S1024x1024 .f32) (slab : Vec F S1x1024x128 .bf16)
    (prev : Vec F S1x1024 .f32) : k0_pay2 (k0_pay5 x0) (k0_pay6 x1) slab prev = k0_pay7 x0 x1 slab prev := rfl

end AnyValues

local notation "D" => dot_S1024x128_S128x1024_S1024x1024_1_0_0_1_n_n

/-- The product's left operand is read at the entry's row and the contracted feature, -/
theorem lhs_row (j : S1024x1024.Idx) (q : (DotDims.contr D).Idx) : (DotDims.lhsIdx D j q 0).val = (j 0).val := by
  unfold DotDims.lhsIdx
  rw [dif_neg (show ¬(0 : Fin S1024x128.rank) ∈ DotDims.lhsBatch D by decide), dif_pos (show (0 : Fin S1024x128.rank) ∈ DotDims.lhsNonContracting D by decide)]
  rfl
theorem lhs_feature (j : S1024x1024.Idx) (q : (DotDims.contr D).Idx) : (DotDims.lhsIdx D j q 1).val = (q ⟨0, by decide⟩).val :=
  DotDims.lhsIdx_val_of_single D rfl j q
/-- and its right operand at the contracted feature and the entry's column. -/
theorem rhs_feature (j : S1024x1024.Idx) (q : (DotDims.contr D).Idx) : (DotDims.rhsIdx D j q 0).val = (q ⟨0, by decide⟩).val :=
  DotDims.rhsIdx_val_of_single D rfl j q
theorem rhs_col (j : S1024x1024.Idx) (q : (DotDims.contr D).Idx) : (DotDims.rhsIdx D j q 1).val = (j 1).val := by
  unfold DotDims.rhsIdx
  rw [dif_neg (show ¬(1 : Fin S128x1024.rank) ∈ DotDims.rhsBatch D by decide), dif_pos (show (1 : Fin S128x1024.rank) ∈ DotDims.rhsNonContracting D by decide)]
  rfl

/-- The inner products of the block's rows with the slab's rows: entry `(r, m)` of the matrix product of `x0` with the
    transposed slab is the sum over the features of `x0 r d · slab m d`. -/
theorem inner_apply (x0 : FVec Ideal S1024x128 .bf16) (slab : FVec Ideal S1x1024x128 .bf16) (r m : Fin 1024) :
    matmul D none x0
        (transpose S128x1024 [1, 0] (shapeCast S1024x128 slab shapeCasts_S1x1024x128_S1024x128) transposes_S1024x128_p1_0_S128x1024)
        (constant S1024x1024 .f32 0x00000000#32) (ix2 r m)
      = ∑ d : Fin 128, x0 (ix2 r d) * slab (ix3 0 m d) := by
  simp only [matmul]
  rw [Ideal.matmul_constant_zero_apply, ← Equiv.sum_comp (contrEquiv1 D 128 rfl rfl).symm]
  refine Finset.sum_congr rfl fun d _ => ?_
  have hk := contrEquiv1_symm_val D 128 rfl rfl d
  have el : DotDims.lhsIdx D (ix2 r m) ((contrEquiv1 D 128 rfl rfl).symm d) = ix2 r d := funext fun a => Fin.ext (by
    match a with
    | ⟨0, _⟩ => exact lhs_row _ _
    | ⟨1, _⟩ => exact (lhs_feature _ _).trans hk)
  have er : DotDims.rhsIdx D (ix2 r m) ((contrEquiv1 D 128 rfl rfl).symm d) = ix2 d m := funext fun a => Fin.ext (by
    match a with
    | ⟨0, _⟩ => exact (rhs_feature _ _).trans hk
    | ⟨1, _⟩ => exact rhs_col _ _)
  rw [el, er]
  congr 1
  refine (transpose_apply [1, 0] _ transposes_S1024x128_p1_0_S128x1024 (ix2 d m) (ix2 m d) (fun b => match b with
    | ⟨0, _⟩ => rfl
    | ⟨1, _⟩ => rfl)).trans ?_
  refine (shapeCast_dropUnit_apply ![1024, 128] slab shapeCasts_S1x1024x128_S1024x128 (ix2 m d)).trans ?_
  exact congrArg slab (funext fun a => Fin.ext (by
    match a with
    | ⟨0, _⟩ => rfl
    | ⟨1, _⟩ => rfl
    | ⟨2, _⟩ => rfl))

/-- The row's update at lane `r`. -/
theorem row_apply (x0 : Vec Ideal S1024x128 .bf16) (x1 : Vec Ideal S1024x1024 .f32) (slab : Vec Ideal S1x1024x128 .bf16)
    (prev : Vec Ideal S1x1024 .f32) (r : Fin 1024) :
    k0_pay7 (F := Ideal) x0 x1 slab prev (ix2 0 r)
      = prev (ix2 0 r) + ∑ m : Fin 1024, (Cert.Loss.one - x1 (ix2 r m))
          * Ideal.exp ((∑ d : Fin 128, x0 (ix2 r d) * slab (ix3 0 m d)) * Cert.Loss.two) := by
  unfold k0_pay7
  refine (shapeCast_addUnit_apply ![1024] _ shapeCasts_S1024_S1x1024 (ix2 0 r)).trans ?_
  show _ + _ = _ + _
  congr 1
  · refine (shapeCast_dropUnit_apply ![1024] prev shapeCasts_S1x1024_S1024 _).trans ?_
    exact congrArg prev (funext fun a => Fin.ext (by
      match a with
      | ⟨0, _⟩ => rfl
      | ⟨1, _⟩ => rfl))
  · refine (Ideal.multiReduction_add_single _ _ reduces_S1024x1024_S1024 (.inl rfl) rfl _).trans ?_
    refine Finset.sum_congr rfl fun m _ => ?_
    show (k0_pay6 (F := Ideal) x1) _ * Ideal.exp (_ * _) = _
    have hi : (reduces_S1024x1024_S1024.lift (fun a => (ix2 (0 : Fin 1) r) a.succ) m) = ix2 r m := funext fun a => Fin.ext (by
      match a with
      | ⟨0, _⟩ => rfl
      | ⟨1, _⟩ => rfl)
    rw [hi]
    congr 1
    congr 1
    congr 1
    have e5 : k0_pay5 (F := Ideal) x0 = x0 := shapeCast_self x0 _
    exact (inner_apply (k0_pay5 (F := Ideal) x0) slab r m).trans (by rw [e5])

/-- The reset stores zeros. -/
theorem reset_apply (i : S3x1024.Idx) : k0_pay4 (F := Ideal) i = 0 := by
  unfold k0_pay4
  rw [shapeCast_self]
  exact Ideal.ofBits_zero_f32

/-- The last point's store: the accumulator, kept above the floor. -/
theorem keep_apply (acc : Vec Ideal S3x1024 .f32) (i : S3x1024.Idx) :
    k0_pay3 (F := Ideal) acc i = max (acc i) Cert.Loss.floor := rfl

end Cert.KernelIdeal.RowUpdate

end
-- ==== Proof.Pieces.lean ====
/-
  What one grid point leaves in the accumulator and in the output block, as the three row updates it stores.

  At every point the body stores the three rows of the [3, 1024] accumulator, row `v` from the slab of view `v` that the
  point's column tile names and from that row's previous contents (`rows`: the three stores, last first). At the first
  point of a row tile the previous contents are the zeros it has just stored; at the last it also stores the
  accumulator, kept above the floor, into the output block.
-/
import proofs.«150340_j34299608826247_2_alg».proof.Proof.Gen.KernelIdeal.Frame
import proofs.«150340_j34299608826247_2_alg».proof.Proof.RowUpdate
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen Cert.KernelIdeal.RowUpdate

variable {F : FTy → Type} [FloatOps F]

theorem hz2 : (![0, 0] : Fin 2 → Nat) = fun _ => 0 := funext fun a => by fin_cases a <;> rfl

/-- The three stores of a point, last first: row `v` of the accumulator from view `v`'s slab and the row's previous
    contents. -/
def rows (i : grid0.Coords) (x0 : Vec F S1024x128 .bf16) (x1 : Vec F S1024x1024 .f32) (x2 : Vec F S3x8192x128 .bf16)
    (prev : Vec F S3x1024 .f32) : List (View.Piece (Elt F) S3x1024 .f32) :=
  [⟨Rect.unit ![2, 0] S1x1024.size inb_S3x1024_S1x1024_2_0,
      k0_pay7 x0 x1 (View.ld x2 (Rect.unit (k0_off3 i) S1x1024x128.size (k0_off3_inb i)))
        (View.ld prev (Rect.unit ![2, 0] S1x1024.size inb_S3x1024_S1x1024_2_0))⟩,
    ⟨Rect.unit ![1, 0] S1x1024.size inb_S3x1024_S1x1024_1_0,
      k0_pay7 x0 x1 (View.ld x2 (Rect.unit (k0_off2 i) S1x1024x128.size (k0_off2_inb i)))
        (View.ld prev (Rect.unit ![1, 0] S1x1024.size inb_S3x1024_S1x1024_1_0))⟩,
    ⟨Rect.unit ![0, 0] S1x1024.size inb_S3x1024_S1x1024_0_0,
      k0_pay7 x0 x1 (View.ld x2 (Rect.unit (k0_off1 i) S1x1024x128.size (k0_off1_inb i)))
        (View.ld prev (Rect.unit ![0, 0] S1x1024.size inb_S3x1024_S1x1024_0_0))⟩]

/-- A point that neither resets nor finishes leaves the three updated rows. -/
theorem middle_acc (c : Dev nD) (i : grid0.Coords) (a2 : Memref sig .tc .vmem S1024x128 .bf16) (h2 : a2.IsWhole) (a3 : Memref sig .tc .vmem S1024x1024 .f32) (h3 : a3.IsWhole) (a4 : Memref sig .tc .vmem S3x8192x128 .bf16) (h4 : a4.IsWhole) (a5 : Memref sig .tc .vmem S3x1024 .f32) (h5 : a5.IsWhole) (a6 : Memref sig .tc .vmem S3x1024 .f32) (h6 : a6.IsWhole) (hc0 : ¬cond0_0 i) (hc1 : ¬cond0_1 i)
    (x0 : Vec F S1024x128 .bf16) (x1 : Vec F S1024x1024 .f32) (x2 : Vec F S3x8192x128 .bf16) (xs0 : Vec F S3x1024 .f32) :
    sout0_B_0 c i a2 h2 a3 h3 a4 h4 a5 h5 a6 h6 hc0 hc1 x0 x1 x2 xs0 = View.canon (rows i x0 x1 x2 xs0) := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  simp only [View.readAt_eq_ld, h2.read_unread, h3.read_unread, h4.read_unread, h6.read_unread,
    View.ld_unit_zero (S := S1024x128) hz2, View.ld_unit_zero (S := S1024x1024) hz2, row1_eq, row2_eq]
  rfl

/-- The last point of a row tile leaves the same three updated rows in the accumulator, -/
theorem last_acc (c : Dev nD) (i : grid0.Coords) (a2 : Memref sig .tc .vmem S1024x128 .bf16) (h2 : a2.IsWhole) (a3 : Memref sig .tc .vmem S1024x1024 .f32) (h3 : a3.IsWhole) (a4 : Memref sig .tc .vmem S3x8192x128 .bf16) (h4 : a4.IsWhole) (a5 : Memref sig .tc .vmem S3x1024 .f32) (h5 : a5.IsWhole) (a6 : Memref sig .tc .vmem S3x1024 .f32) (h6 : a6.IsWhole) (hc0 : ¬cond0_0 i) (hc1 : cond0_1 i)
    (x0 : Vec F S1024x128 .bf16) (x1 : Vec F S1024x1024 .f32) (x2 : Vec F S3x8192x128 .bf16) (xs0 : Vec F S3x1024 .f32) :
    sout0_C_0 c i a2 h2 a3 h3 a4 h4 a5 h5 a6 h6 hc0 hc1 x0 x1 x2 xs0 = View.canon (rows i x0 x1 x2 xs0) := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  simp only [View.readAt_eq_ld, h2.read_unread, h3.read_unread, h4.read_unread, h6.read_unread,
    View.ld_unit_zero (S := S1024x128) hz2, View.ld_unit_zero (S := S1024x1024) hz2, row1_eq, row2_eq]
  rfl

/-- and in the output block those rows, kept above the floor. -/
theorem last_out (c : Dev nD) (i : grid0.Coords) (a2 : Memref sig .tc .vmem S1024x128 .bf16) (h2 : a2.IsWhole) (a3 : Memref sig .tc .vmem S1024x1024 .f32) (h3 : a3.IsWhole) (a4 : Memref sig .tc .vmem S3x8192x128 .bf16) (h4 : a4.IsWhole) (a5 : Memref sig .tc .vmem S3x1024 .f32) (h5 : a5.IsWhole) (a6 : Memref sig .tc .vmem S3x1024 .f32) (h6 : a6.IsWhole) (hc0 : ¬cond0_0 i) (hc1 : cond0_1 i)
    (x0 : Vec F S1024x128 .bf16) (x1 : Vec F S1024x1024 .f32) (x2 : Vec F S3x8192x128 .bf16) (xs0 : Vec F S3x1024 .f32) :
    out0_C_3 c i a2 h2 a3 h3 a4 h4 a5 h5 a6 h6 hc0 hc1 x0 x1 x2 xs0 = k0_pay3 (View.canon (rows i x0 x1 x2 xs0)) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz2, View.readCov_eq_canon']
  simp only [View.readAt_eq_ld, h2.read_unread, h3.read_unread, h4.read_unread, h6.read_unread,
    View.ld_unit_zero (S := S1024x128) hz2, View.ld_unit_zero (S := S1024x1024) hz2, row1_eq, row2_eq]
  refine congrArg k0_pay3 ?_
  exact View.ld_unit_zero (S := S3x1024) hz2 inb_S3x1024_S3x1024_0_0 (View.canon (rows i x0 x1 x2 xs0))

end Cert.KernelIdeal.Pieces

end
-- ==== Proof.Step.lean ====
/-
  The accumulator after one grid point, read at a lane.

  Point `i = (row tile, column tile j)` adds to lane `r` of row `v` the sum, over the 1024 columns `m` of tile `j`, of
  `(1 - x1 r m) · exp (2 · ∑ d, x0 r d · x2 v (1024 j + m) d)` — `x0` the point's block of consensus rows, `x1` its block of
  weights, `x2` the whole array of view rows (`contrib`). So the accumulator's lane after the point is its lane before
  plus that (`rows_apply`), whatever earlier stores the new rows overwrite.
-/
import proofs.«150340_j34299608826247_2_alg».proof.Proof.Pieces

set_option maxRecDepth 16384

noncomputable section

open Idealize.ShloMosaic Idealize.ShloMosaic.TcCoe Idealize.SL.Sem Idealize.ShloMosaic.ValueIdx

namespace Cert.KernelIdeal.Step

open Cert.KernelIdeal Cert.KernelIdeal.Gen Cert.KernelIdeal.RowUpdate Cert.KernelIdeal.Pieces
open scoped BigOperators

/-- The first column of tile `j` is column `1024 j`: the index arithmetic is done in 32-bit words, which hold it. -/
theorem tile_start : ∀ j : Fin 8, (Scalar.indexCast (Scalar.muli (BitVec.ofNat 32 j.val) 1024#32)).toNat = j.val * 1024 := by
  decide

/-- The column tile of a grid point. -/
abbrev tileOf (i : grid0.Coords) : Fin 8 := ⟨(i 1).val, (i 1).isLt⟩

/-- What the point adds to lane `r` of row `v`. -/
def contrib (i : grid0.Coords) (x0 : Vec Ideal S1024x128 .bf16) (x1 : Vec Ideal S1024x1024 .f32)
    (x2 : Vec Ideal S3x8192x128 .bf16) (v : Fin 3) (r : Fin 1024) : EReal :=
  ∑ m : Fin 1024, (Cert.Loss.one - x1 (ix2 r m))
    * Ideal.exp ((∑ d : Fin 128, x0 (ix2 r d) * x2 (ix3 v (Cert.Loss.col (tileOf i) m) d)) * Cert.Loss.two)

/-- One row's store read at a lane: the row's previous lane plus the point's contribution, for a slab that starts at
    view `v` and the tile's first column. -/
theorem row_read (i : grid0.Coords) (x0 : Vec Ideal S1024x128 .bf16) (x1 : Vec Ideal S1024x1024 .f32)
    (x2 : Vec Ideal S3x8192x128 .bf16) (prev : Vec Ideal S3x1024 .f32) (v : Fin 3) (off : Fin 3 → Nat)
    (inb : ∀ a, off a + S1x1024x128.size a ≤ S3x8192x128.size a)
    (rinb : ∀ a, (![v.val, 0] : Fin 2 → Nat) a + S1x1024.size a ≤ S3x1024.size a)
    (h0 : off 0 = v.val) (h1 : off 1 = (i 1).val * 1024) (h2 : off 2 = 0) (r : Fin 1024) :
    k0_pay7 (F := Ideal) x0 x1 (View.ld x2 (Rect.unit off S1x1024x128.size inb))
        (View.ld prev (Rect.unit ![v.val, 0] S1x1024.size rinb)) (ix2 0 r)
      = prev (ix2 v r) + contrib i x0 x1 x2 v r := by
  rw [row_apply]
  unfold contrib
  congr 1
  · exact congrArg prev (funext fun a => Fin.ext (by
      match a with
      | ⟨0, _⟩ => show v.val + 1 * 0 = v.val; omega
      | ⟨1, _⟩ => show 0 + 1 * r.val = r.val; omega))
  · refine Finset.sum_congr rfl fun m _ => ?_
    congr 1
    congr 1
    congr 1
    refine Finset.sum_congr rfl fun d _ => ?_
    congr 1
    exact congrArg x2 (funext fun a => Fin.ext (by
      match a with
      | ⟨0, _⟩ => show off 0 + 1 * 0 = v.val; omega
      | ⟨1, _⟩ => show off 1 + 1 * m.val = (i 1).val * 1024 + m.val; omega
      | ⟨2, _⟩ => show off 2 + 1 * d.val = d.val; omega))

theorem off1_tile (i : grid0.Coords) : k0_off1 i 1 = (i 1).val * 1024 := tile_start (tileOf i)
theorem off2_tile (i : grid0.Coords) : k0_off2 i 1 = (i 1).val * 1024 := tile_start (tileOf i)
theorem off3_tile (i : grid0.Coords) : k0_off3 i 1 = (i 1).val * 1024 := tile_start (tileOf i)

variable (i : grid0.Coords) (x0 : Vec Ideal S1024x128 .bf16) (x1 : Vec Ideal S1024x1024 .f32)
  (x2 : Vec Ideal S3x8192x128 .bf16) (prev : Vec Ideal S3x1024 .f32) (L : List (View.Piece (Elt Ideal) S3x1024 .f32))

/-- The rectangles of the three rows of the accumulator, -/
abbrev rect0 : Rect S3x1024 := Rect.unit ![0, 0] S1x1024.size inb_S3x1024_S1x1024_0_0
abbrev rect1 : Rect S3x1024 := Rect.unit ![1, 0] S1x1024.size inb_S3x1024_S1x1024_1_0
abbrev rect2 : Rect S3x1024 := Rect.unit ![2, 0] S1x1024.size inb_S3x1024_S1x1024_2_0

/-- and what the point stores through each. -/
abbrev pay0 : Vec Ideal S1x1024 .f32 :=
  k0_pay7 (F := Ideal) x0 x1 (View.ld x2 (Rect.unit (k0_off1 i) S1x1024x128.size (k0_off1_inb i))) (View.ld prev rect0)
abbrev pay1 : Vec Ideal S1x1024 .f32 :=
  k0_pay7 (F := Ideal) x0 x1 (View.ld x2 (Rect.unit (k0_off2 i) S1x1024x128.size (k0_off2_inb i))) (View.ld prev rect1)
abbrev pay2 : Vec Ideal S1x1024 .f32 :=
  k0_pay7 (F := Ideal) x0 x1 (View.ld x2 (Rect.unit (k0_off3 i) S1x1024x128.size (k0_off3_inb i))) (View.ld prev rect2)

abbrev piece0 : View.Piece (Elt Ideal) S3x1024 .f32 := ⟨rect0, pay0 i x0 x1 x2 prev⟩
abbrev piece1 : View.Piece (Elt Ideal) S3x1024 .f32 := ⟨rect1, pay1 i x0 x1 x2 prev⟩
abbrev piece2 : View.Piece (Elt Ideal) S3x1024 .f32 := ⟨rect2, pay2 i x0 x1 x2 prev⟩

theorem rows_eq : rows (F := Ideal) i x0 x1 x2 prev ++ L
    = piece2 i x0 x1 x2 prev :: piece1 i x0 x1 x2 prev :: piece0 i x0 x1 x2 prev :: L := rfl

theorem emb0 (r : Fin 1024) : rect0.emb (ix2 (0 : Fin 1) r) = ix2 (0 : Fin 3) r :=
  funext fun a => Fin.ext (by
    match a with
    | ⟨0, _⟩ => rfl
    | ⟨1, _⟩ => show 0 + 1 * r.val = r.val; omega)
theorem emb1 (r : Fin 1024) : rect1.emb (ix2 (0 : Fin 1) r) = ix2 (1 : Fin 3) r :=
  funext fun a => Fin.ext (by
    match a with
    | ⟨0, _⟩ => rfl
    | ⟨1, _⟩ => show 0 + 1 * r.val = r.val; omega)
theorem emb2 (r : Fin 1024) : rect2.emb (ix2 (0 : Fin 1) r) = ix2 (2 : Fin 3) r :=
  funext fun a => Fin.ext (by
    match a with
    | ⟨0, _⟩ => rfl
    | ⟨1, _⟩ => show 0 + 1 * r.val = r.val; omega)

/-- An index of an earlier row is not under the store to a later row. -/
theorem row0_not_mem1 (r : Fin 1024) : ix2 (0 : Fin 3) r ∉ rect1.set := fun hm =>
  absurd (show (1 : ℕ) ≤ 0 from ((Rect.mem_set_unit.mp hm) 0).1) (by decide)
theorem row0_not_mem2 (r : Fin 1024) : ix2 (0 : Fin 3) r ∉ rect2.set := fun hm =>
  absurd (show (2 : ℕ) ≤ 0 from ((Rect.mem_set_unit.mp hm) 0).1) (by decide)
theorem row1_not_mem2 (r : Fin 1024) : ix2 (1 : Fin 3) r ∉ rect2.set := fun hm =>
  absurd (show (2 : ℕ) ≤ 1 from ((Rect.mem_set_unit.mp hm) 0).1) (by decide)

/-- Lane `r` of the last row stored: the first store of the list holds it. -/
theorem rows_apply2 (r : Fin 1024) :
    View.canon (rows (F := Ideal) i x0 x1 x2 prev ++ L) (ix2 (2 : Fin 3) r) = prev (ix2 2 r) + contrib i x0 x1 x2 2 r := by
  rw [rows_eq]
  have h := View.canon_cons_emb rect2 (pay2 i x0 x1 x2 prev) (piece1 i x0 x1 x2 prev :: piece0 i x0 x1 x2 prev :: L) (ix2 (0 : Fin 1) r)
  rw [emb2] at h
  exact h.trans (row_read i x0 x1 x2 prev 2 (k0_off3 i) (k0_off3_inb i) inb_S3x1024_S1x1024_2_0 rfl (off3_tile i) rfl r)

/-- Lane `r` of the middle row: past the store to the last row, the second store holds it. -/
theorem rows_apply1 (r : Fin 1024) :
    View.canon (rows (F := Ideal) i x0 x1 x2 prev ++ L) (ix2 (1 : Fin 3) r) = prev (ix2 1 r) + contrib i x0 x1 x2 1 r := by
  rw [rows_eq]
  have h2 := View.canon_cons_of_not_mem (piece2 i x0 x1 x2 prev) (piece1 i x0 x1 x2 prev :: piece0 i x0 x1 x2 prev :: L) (row1_not_mem2 r)
  have h := View.canon_cons_emb rect1 (pay1 i x0 x1 x2 prev) (piece0 i x0 x1 x2 prev :: L) (ix2 (0 : Fin 1) r)
  rw [emb1] at h
  exact h2.trans (h.trans (row_read i x0 x1 x2 prev 1 (k0_off2 i) (k0_off2_inb i) inb_S3x1024_S1x1024_1_0 rfl (off2_tile i) rfl r))

/-- Lane `r` of the first row: past the stores to the other two rows, the third store holds it. -/
theorem rows_apply0 (r : Fin 1024) :
    View.canon (rows (F := Ideal) i x0 x1 x2 prev ++ L) (ix2 (0 : Fin 3) r) = prev (ix2 0 r) + contrib i x0 x1 x2 0 r := by
  rw [rows_eq]
  have h2 := View.canon_cons_of_not_mem (piece2 i x0 x1 x2 prev) (piece1 i x0 x1 x2 prev :: piece0 i x0 x1 x2 prev :: L) (row0_not_mem2 r)
  have h1 := View.canon_cons_of_not_mem (piece1 i x0 x1 x2 prev) (piece0 i x0 x1 x2 prev :: L) (row0_not_mem1 r)
  have h := View.canon_cons_emb rect0 (pay0 i x0 x1 x2 prev) L (ix2 (0 : Fin 1) r)
  rw [emb0] at h
  exact h2.trans (h1.trans (h.trans (row_read i x0 x1 x2 prev 0 (k0_off1 i) (k0_off1_inb i) inb_S3x1024_S1x1024_0_0 rfl (off1_tile i) rfl r)))

/-- THE STEP: after a point's three stores, lane `r` of row `v` is what it was plus the point's contribution. -/
theorem rows_apply (v : Fin 3) (r : Fin 1024) :
    View.canon (rows (F := Ideal) i x0 x1 x2 prev ++ L) (ix2 v r) = prev (ix2 v r) + contrib i x0 x1 x2 v r :=
  match v with
  | ⟨0, _⟩ => rows_apply0 i x0 x1 x2 prev L r
  | ⟨1, _⟩ => rows_apply1 i x0 x1 x2 prev L r
  | ⟨2, _⟩ => rows_apply2 i x0 x1 x2 prev L r

end Cert.KernelIdeal.Step

end
-- ==== Proof.Blocks.lean ====
/-
  The blocks a grid point works on, read off the arrays the region finds.

  Point `t` of the 8 × 8 grid has row tile `t / 8` and column tile `t % 8`. Its block of consensus rows is rows
  `1024 (t / 8) + r` of the consensus array; its block of weights is those rows and columns `1024 (t % 8) + q` of the
  weight matrix; the view rows are resident whole. So what the point adds to lane `r` of row `v` is the specification's
  tile `t % 8` of the terms of view `v` and sample `1024 (t / 8) + r`.
-/
import proofs.«150340_j34299608826247_2_alg».proof.Proof.Step

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Step
open scoped BigOperators

variable (m : (ℓ : Loc nD τ sig) → Buf (Elt Ideal) ℓ) (c : Dev nD)

/-- The printed index maps and the column coordinate, decided over the 64 points of the grid. -/
theorem idx_facts : ∀ t : Fin cfg0.N,
    win0_0.index t (0 : Fin 2) = t.val / 8 ∧ win0_0.index t (1 : Fin 2) = 0
    ∧ win0_1.index t (0 : Fin 2) = t.val / 8 ∧ win0_1.index t (1 : Fin 2) = t.val % 8
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = t.val / 8
    ∧ (grid0.coords t 1).val = t.val % 8 :=
  (by decide +kernel : ∀ t : Fin grid0.N, _)

theorem N64 : cfg0.N = 64 := N_0

/-- The sample that lane `r` of point `t`'s row tile stands for. -/
abbrev rowOf (t : Fin cfg0.N) (r : Fin 1024) : Fin 8192 :=
  ⟨t.val / 8 * 1024 + r.val, by have h1 := t.isLt; have h2 : cfg0.N = 64 := N_0; have h3 := r.isLt; omega⟩

/-- The column tile of point `t`. -/
abbrev tileAt (t : Fin cfg0.N) : Fin 8 := ⟨t.val % 8, Nat.mod_lt _ (by decide)⟩

theorem tileOf_coords (t : Fin cfg0.N) : tileOf (grid0.coords t) = tileAt t :=
  Fin.ext (idx_facts t).2.2.2.2.2.2.2.2.2

/-- The block of consensus rows at point `t`. -/
theorem iblk0_apply (t : Fin cfg0.N) (r : Fin 1024) (d : Fin 128) :
    (iblk m c 0 t : Vec Ideal S1024x128 .bf16) (ix2 r d) = V m c main_v5 (ix2 (rowOf t r) d) := by
  obtain ⟨e0, e1, -⟩ := idx_facts t
  unfold iblk
  rw [View.read_apply]
  show V m c main_v5 (((cfg0.win 0).blk t).view.emb (ix2 r d)) = V m c main_v5 (ix2 (rowOf t r) d)
  refine congrArg (V m c main_v5) (funext fun a => Fin.ext ?_)
  match a with
  | ⟨0, _⟩ => show win0_0.index t (0 : Fin 2) * 1024 + 1 * r.val = t.val / 8 * 1024 + r.val; rw [e0]; omega
  | ⟨1, _⟩ => show win0_0.index t (1 : Fin 2) * 128 + 1 * d.val = d.val; rw [e1]; omega

/-- The block of weights at point `t`. -/
theorem iblk1_apply (t : Fin cfg0.N) (r q : Fin 1024) :
    (iblk m c 1 t : Vec Ideal S1024x1024 .f32) (ix2 r q) = V m c main_arg1 (ix2 (rowOf t r) (Cert.Loss.col (tileAt t) q)) := by
  obtain ⟨-, -, e0, e1, -⟩ := idx_facts t
  unfold iblk
  rw [View.read_apply]
  show V m c main_arg1 (((cfg0.win 1).blk t).view.emb (ix2 r q)) = V m c main_arg1 (ix2 (rowOf t r) (Cert.Loss.col (tileAt t) q))
  refine congrArg (V m c main_arg1) (funext fun a => Fin.ext ?_)
  match a with
  | ⟨0, _⟩ => show win0_1.index t (0 : Fin 2) * 1024 + 1 * r.val = t.val / 8 * 1024 + r.val; rw [e0]; omega
  | ⟨1, _⟩ => show win0_1.index t (1 : Fin 2) * 1024 + 1 * q.val = t.val % 8 * 1024 + q.val; rw [e1]; omega

/-- The view rows are resident whole: the block is the array. -/
theorem iblk2_apply (t : Fin cfg0.N) (y : S3x8192x128.Idx) :
    (iblk m c 2 t : Vec Ideal S3x8192x128 .bf16) y = V m c main_v11 y := by
  obtain ⟨-, -, -, -, e0, e1, e2, -⟩ := idx_facts t
  unfold iblk
  rw [View.read_apply]
  show V m c main_v11 (((cfg0.win 2).blk t).view.emb y) = V m c main_v11 y
  refine congrArg (V m c main_v11) (funext fun a => Fin.ext ?_)
  match a with
  | ⟨0, _⟩ => show win0_2.index t (0 : Fin 3) * 3 + 1 * (y 0).val = (y 0).val; rw [e0]; omega
  | ⟨1, _⟩ => show win0_2.index t (1 : Fin 3) * 8192 + 1 * (y 1).val = (y 1).val; rw [e1]; omega
  | ⟨2, _⟩ => show win0_2.index t (2 : Fin 3) * 128 + 1 * (y 2).val = (y 2).val; rw [e2]; omega

end Cert.KernelIdeal.Blocks

end
-- ==== Proof.Tile.lean ====
/-
  What a grid point adds to the accumulator is one column tile of the specification: at point `t`, lane `r` of row `v`
  receives the sum of tile `t % 8` of the terms of view `v` and sample `1024 (t / 8) + r` — the point's blocks are those
  rows and columns of the arrays the region finds.
-/
import proofs.«150340_j34299608826247_2_alg».proof.Proof.Blocks

set_option maxRecDepth 16384

noncomputable section

open Idealize.ShloMosaic Idealize.ShloMosaic.TcCoe Idealize.SL.Sem Idealize.ShloMosaic.ValueIdx

namespace Cert.KernelIdeal.Tile

open Cert.KernelIdeal Cert.KernelIdeal.Gen Cert.KernelIdeal.Step Cert.KernelIdeal.Blocks
open scoped BigOperators

variable (m : (ℓ : Loc nD τ sig) → Buf (Elt Ideal) ℓ) (c : Dev nD)

/-- The contribution over VARIABLE blocks that read the arrays `hc`, `hv`, `s` at the tile's rows and columns. -/
theorem contrib_of_reads (i : grid0.Coords) (j : Fin 8) (hj : tileOf i = j) (n : Fin 1024 → Fin 8192)
    (x0 : Vec Ideal S1024x128 .bf16) (x1 : Vec Ideal S1024x1024 .f32) (x2 : Vec Ideal S3x8192x128 .bf16)
    (hc : Cert.Loss.RowsC.Idx → EReal) (hv : Cert.Loss.RowsV.Idx → EReal) (s : Cert.Loss.Pairs.Idx → EReal)
    (h0 : ∀ r d, x0 (ix2 r d) = hc (ix2 (n r) d)) (h1 : ∀ r q, x1 (ix2 r q) = s (ix2 (n r) (Cert.Loss.col j q)))
    (h2 : ∀ y, x2 y = hv y) (v : Fin 3) (r : Fin 1024) :
    contrib i x0 x1 x2 v r = Cert.Loss.tile hc hv s v (n r) j.val := by
  unfold contrib Cert.Loss.tile
  rw [dif_pos j.isLt, hj]
  refine Finset.sum_congr rfl fun q _ => ?_
  unfold Cert.Loss.term Cert.Loss.sim
  rw [h1 r q]
  congr 1
  congr 1
  congr 1
  refine Finset.sum_congr rfl fun d _ => ?_
  rw [h0 r d, h2]

/-- THE POINT'S CONTRIBUTION is the specification's tile `t % 8` of sample `1024 (t / 8) + r` in view `v`. -/
theorem contrib_eq_tile (t : Fin cfg0.N) (v : Fin 3) (r : Fin 1024) :
    contrib (grid0.coords t) (iblk m c 0 t) (iblk m c 1 t) (iblk m c 2 t) v r
      = Cert.Loss.tile (V m c main_v5) (V m c main_v11) (V m c main_arg1) v (rowOf t r) (t.val % 8) :=
  contrib_of_reads (grid0.coords t) (tileAt t) (tileOf_coords t) (rowOf t) (iblk m c 0 t) (iblk m c 1 t) (iblk m c 2 t)
    (V m c main_v5) (V m c main_v11) (V m c main_arg1) (iblk0_apply m c t) (iblk1_apply m c t) (iblk2_apply m c t) v r

end Cert.KernelIdeal.Tile

end
-- ==== Proof.Reset.lean ====
/-
  The first point of a row tile: the accumulator is filled with zeros, then its three rows are stored, each updated
  from the zeros just stored (a row read back after the fill and after stores to other rows only is a row of zeros).
-/
import proofs.«150340_j34299608826247_2_alg».proof.Proof.Pieces

set_option maxRecDepth 16384

noncomputable section

open Idealize.ShloMosaic Idealize.ShloMosaic.TcCoe Idealize.SL.Sem Idealize.ShloMosaic.Tactic

namespace Cert.KernelIdeal.Reset

open Cert.KernelIdeal Cert.KernelIdeal.Gen Cert.KernelIdeal.RowUpdate Cert.KernelIdeal.Pieces

variable {F : FTy → Type} [FloatOps F]

/-- A row of the accumulator read back after the zero fill and after stores to OTHER rows only is a row of zeros. -/
theorem read_row_after_fill {sg : RefSig} (vw : View sg .tc .vmem S3x1024 .f32) (R : Rect S3x1024) :
    vw.readCov [(⟨Rect.unit ![0, 0] S3x1024.size inb_S3x1024_S3x1024_0_0, k0_pay4 (F := F)⟩ : View.Piece (Elt F) S3x1024 .f32)] R.toLoadRect
      = View.ld (k0_pay4 (F := F)) R := by
  rw [View.readCov_eq_canon', View.canon_unit_zero hz2]

/-- The first point of a row tile fills the accumulator with zeros and then stores the three rows, each updated from
    zeros. -/
theorem first_acc (c : Dev nD) (i : grid0.Coords) (a2 : Memref sig .tc .vmem S1024x128 .bf16) (h2 : a2.IsWhole) (a3 : Memref sig .tc .vmem S1024x1024 .f32) (h3 : a3.IsWhole) (a4 : Memref sig .tc .vmem S3x8192x128 .bf16) (h4 : a4.IsWhole) (a5 : Memref sig .tc .vmem S3x1024 .f32) (h5 : a5.IsWhole) (a6 : Memref sig .tc .vmem S3x1024 .f32) (h6 : a6.IsWhole) (hc0 : cond0_0 i) (hc1 : ¬cond0_1 i)
    (x0 : Vec F S1024x128 .bf16) (x1 : Vec F S1024x1024 .f32) (x2 : Vec F S3x8192x128 .bf16) :
    sout0_A_0 c i a2 h2 a3 h3 a4 h4 a5 h5 a6 h6 hc0 hc1 x0 x1 x2
      = View.canon (rows i x0 x1 x2 (k0_pay4 (F := F))
          ++ [(⟨Rect.unit ![0, 0] S3x1024.size inb_S3x1024_S3x1024_0_0, k0_pay4 (F := F)⟩ : View.Piece (Elt F) S3x1024 .f32)]) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  have d01 : Disjoint (Rect.unit (s := S3x1024) ![0, 0] S1x1024.size inb_S3x1024_S1x1024_0_0).set
      (Rect.unit (s := S3x1024) ![1, 0] S1x1024.size inb_S3x1024_S1x1024_1_0).toLoadRect.set := Rect.unit_disjoint 0 (Or.inl (by decide))
  have d02 : Disjoint (Rect.unit (s := S3x1024) ![0, 0] S1x1024.size inb_S3x1024_S1x1024_0_0).set
      (Rect.unit (s := S3x1024) ![2, 0] S1x1024.size inb_S3x1024_S1x1024_2_0).toLoadRect.set := Rect.unit_disjoint 0 (Or.inl (by decide))
  have d12 : Disjoint (Rect.unit (s := S3x1024) ![1, 0] S1x1024.size inb_S3x1024_S1x1024_1_0).set
      (Rect.unit (s := S3x1024) ![2, 0] S1x1024.size inb_S3x1024_S1x1024_2_0).toLoadRect.set := Rect.unit_disjoint 0 (Or.inl (by decide))
  rw [View.readCov_cons_of_disjoint a6.view ⟨Rect.unit (s := S3x1024) ![1, 0] S1x1024.size inb_S3x1024_S1x1024_1_0, _⟩ _
      (Rect.unit (s := S3x1024) ![2, 0] S1x1024.size inb_S3x1024_S1x1024_2_0).toLoadRect d12]
  rw [View.readCov_cons_of_disjoint a6.view ⟨Rect.unit (s := S3x1024) ![0, 0] S1x1024.size inb_S3x1024_S1x1024_0_0, _⟩ _
      (Rect.unit (s := S3x1024) ![2, 0] S1x1024.size inb_S3x1024_S1x1024_2_0).toLoadRect d02]
  rw [View.readCov_cons_of_disjoint a6.view ⟨Rect.unit (s := S3x1024) ![0, 0] S1x1024.size inb_S3x1024_S1x1024_0_0, _⟩ _
      (Rect.unit (s := S3x1024) ![1, 0] S1x1024.size inb_S3x1024_S1x1024_1_0).toLoadRect d01]
  rw [read_row_after_fill a6.view (Rect.unit (s := S3x1024) ![2, 0] S1x1024.size inb_S3x1024_S1x1024_2_0),
    read_row_after_fill a6.view (Rect.unit (s := S3x1024) ![1, 0] S1x1024.size inb_S3x1024_S1x1024_1_0),
    read_row_after_fill a6.view (Rect.unit (s := S3x1024) ![0, 0] S1x1024.size inb_S3x1024_S1x1024_0_0)]
  simp only [View.readAt_eq_ld, h2.read_unread, h3.read_unread, h4.read_unread,
    View.ld_unit_zero (S := S1024x128) hz2, View.ld_unit_zero (S := S1024x1024) hz2, row1_eq, row2_eq]
  rfl

end Cert.KernelIdeal.Reset

end
-- ==== Proof.PointCases.lean ====
/-
  The accumulator after a grid point, case by case.

  A row tile's first point leaves its own contribution (it starts from the zeros it has stored); every other point
  leaves what the point before left plus its contribution; a row tile's last point also stores the accumulator it
  leaves, kept above the floor, into the output block.
-/
import proofs.«150340_j34299608826247_2_alg».proof.Proof.Tile
import proofs.«150340_j34299608826247_2_alg».proof.Proof.Reset

set_option maxRecDepth 16384

noncomputable section

open Idealize.ShloMosaic Idealize.ShloMosaic.TcCoe Idealize.SL.Sem Idealize.ShloMosaic.ValueIdx
open Idealize.ShloMosaic.Pipeline (Dat)

namespace Cert.KernelIdeal.PointCases

open Cert.KernelIdeal Cert.KernelIdeal.Gen Cert.KernelIdeal.RowUpdate Cert.KernelIdeal.Pieces Cert.KernelIdeal.Step
  Cert.KernelIdeal.Blocks Cert.KernelIdeal.Tile
open scoped BigOperators

/-! ## One point, at a lane -/

/-- A row tile's first point leaves its own contribution (it starts from zeros). -/
theorem first_lane (c : Dev nD) (i : grid0.Coords) (a2 : Memref sig .tc .vmem S1024x128 .bf16) (h2 : a2.IsWhole) (a3 : Memref sig .tc .vmem S1024x1024 .f32) (h3 : a3.IsWhole) (a4 : Memref sig .tc .vmem S3x8192x128 .bf16) (h4 : a4.IsWhole) (a5 : Memref sig .tc .vmem S3x1024 .f32) (h5 : a5.IsWhole) (a6 : Memref sig .tc .vmem S3x1024 .f32) (h6 : a6.IsWhole) (hc0 : cond0_0 i) (hc1 : ¬cond0_1 i)
    (x0 : Vec Ideal S1024x128 .bf16) (x1 : Vec Ideal S1024x1024 .f32) (x2 : Vec Ideal S3x8192x128 .bf16)
    (v : Fin 3) (r : Fin 1024) :
    sout0_A_0 (F := Ideal) c i a2 h2 a3 h3 a4 h4 a5 h5 a6 h6 hc0 hc1 x0 x1 x2 (ix2 v r) = contrib i x0 x1 x2 v r := by
  rw [Cert.KernelIdeal.Reset.first_acc, rows_apply, reset_apply, zero_add]

/-- Any other point adds its contribution to what the accumulator held. -/
theorem middle_lane (c : Dev nD) (i : grid0.Coords) (a2 : Memref sig .tc .vmem S1024x128 .bf16) (h2 : a2.IsWhole) (a3 : Memref sig .tc .vmem S1024x1024 .f32) (h3 : a3.IsWhole) (a4 : Memref sig .tc .vmem S3x8192x128 .bf16) (h4 : a4.IsWhole) (a5 : Memref sig .tc .vmem S3x1024 .f32) (h5 : a5.IsWhole) (a6 : Memref sig .tc .vmem S3x1024 .f32) (h6 : a6.IsWhole) (hc0 : ¬cond0_0 i) (hc1 : ¬cond0_1 i)
    (x0 : Vec Ideal S1024x128 .bf16) (x1 : Vec Ideal S1024x1024 .f32) (x2 : Vec Ideal S3x8192x128 .bf16)
    (xs0 : Vec Ideal S3x1024 .f32) (v : Fin 3) (r : Fin 1024) :
    sout0_B_0 (F := Ideal) c i a2 h2 a3 h3 a4 h4 a5 h5 a6 h6 hc0 hc1 x0 x1 x2 xs0 (ix2 v r) = xs0 (ix2 v r) + contrib i x0 x1 x2 v r := by
  rw [middle_acc, ← List.append_nil (rows i x0 x1 x2 xs0), rows_apply]

theorem last_lane (c : Dev nD) (i : grid0.Coords) (a2 : Memref sig .tc .vmem S1024x128 .bf16) (h2 : a2.IsWhole) (a3 : Memref sig .tc .vmem S1024x1024 .f32) (h3 : a3.IsWhole) (a4 : Memref sig .tc .vmem S3x8192x128 .bf16) (h4 : a4.IsWhole) (a5 : Memref sig .tc .vmem S3x1024 .f32) (h5 : a5.IsWhole) (a6 : Memref sig .tc .vmem S3x1024 .f32) (h6 : a6.IsWhole) (hc0 : ¬cond0_0 i) (hc1 : cond0_1 i)
    (x0 : Vec Ideal S1024x128 .bf16) (x1 : Vec Ideal S1024x1024 .f32) (x2 : Vec Ideal S3x8192x128 .bf16)
    (xs0 : Vec Ideal S3x1024 .f32) (v : Fin 3) (r : Fin 1024) :
    sout0_C_0 (F := Ideal) c i a2 h2 a3 h3 a4 h4 a5 h5 a6 h6 hc0 hc1 x0 x1 x2 xs0 (ix2 v r) = xs0 (ix2 v r) + contrib i x0 x1 x2 v r := by
  rw [last_acc, ← List.append_nil (rows i x0 x1 x2 xs0), rows_apply]

/-- The block a row tile's last point stores is the accumulator it leaves, kept above the floor. -/
theorem last_out_lane (c : Dev nD) (i : grid0.Coords) (a2 : Memref sig .tc .vmem S1024x128 .bf16) (h2 : a2.IsWhole) (a3 : Memref sig .tc .vmem S1024x1024 .f32) (h3 : a3.IsWhole) (a4 : Memref sig .tc .vmem S3x8192x128 .bf16) (h4 : a4.IsWhole) (a5 : Memref sig .tc .vmem S3x1024 .f32) (h5 : a5.IsWhole) (a6 : Memref sig .tc .vmem S3x1024 .f32) (h6 : a6.IsWhole) (hc0 : ¬cond0_0 i) (hc1 : cond0_1 i)
    (x0 : Vec Ideal S1024x128 .bf16) (x1 : Vec Ideal S1024x1024 .f32) (x2 : Vec Ideal S3x8192x128 .bf16)
    (xs0 : Vec Ideal S3x1024 .f32) (y : S3x1024.Idx) :
    out0_C_3 (F := Ideal) c i a2 h2 a3 h3 a4 h4 a5 h5 a6 h6 hc0 hc1 x0 x1 x2 xs0 y
      = max (sout0_C_0 (F := Ideal) c i a2 h2 a3 h3 a4 h4 a5 h5 a6 h6 hc0 hc1 x0 x1 x2 xs0 y) Cert.Loss.floor := by
  rw [last_out, last_acc]
  rfl

variable (m : (ℓ : Loc nD τ sig) → Buf (Elt Ideal) ℓ) (c : Dev nD)

/-- What point `t` adds to lane `r` of row `v`. -/
abbrev contribAt (t : Fin cfg0.N) (v : Fin 3) (r : Fin 1024) : EReal :=
  contrib (grid0.coords t) (iblk m c 0 t) (iblk m c 1 t) (iblk m c 2 t) v r

/-- After a row tile's first point. -/
theorem acc_first (t : Fin cfg0.N) (h0 : t.val % 8 = 0) (h1 : ¬t.val % 8 = 7) (v : Fin 3) (r : Fin 1024) :
    (outsAt0 m c t.val t.isLt).2 (ix2 v r) = contribAt m c t v r := by
  rw [outsAt0_A m c t h0 h1]
  dsimp only
  exact first_lane c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t) v r

/-- After a point that neither starts nor ends a row tile. -/
theorem acc_middle (t : Fin cfg0.N) (h0 : ¬t.val % 8 = 0) (h1 : ¬t.val % 8 = 7) (v : Fin 3) (r : Fin 1024) :
    (outsAt0 m c t.val t.isLt).2 (ix2 v r)
      = (outsAt0 m c (t.val - 1) (Nat.lt_of_le_of_lt (Nat.sub_le _ _) t.isLt)).2 (ix2 v r) + contribAt m c t v r := by
  rw [outsAt0_B m c t h0 h1]
  dsimp only
  exact middle_lane c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (iblk m c 0 t) (iblk m c 1 t) (iblk m c 2 t) (outsAt0 m c (t.val - 1) (Nat.lt_of_le_of_lt (Nat.sub_le _ _) t.isLt)).2 v r

/-- After a row tile's last point: the accumulator, -/
theorem acc_last (t : Fin cfg0.N) (h0 : ¬t.val % 8 = 0) (h1 : t.val % 8 = 7) (v : Fin 3) (r : Fin 1024) :
    (outsAt0 m c t.val t.isLt).2 (ix2 v r)
      = (outsAt0 m c (t.val - 1) (Nat.lt_of_le_of_lt (Nat.sub_le _ _) t.isLt)).2 (ix2 v r) + contribAt m c t v r := by
  rw [outsAt0_C m c t h0 h1]
  dsimp only
  exact last_lane c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2 v r

/-- and the output block: that accumulator kept above the floor. -/
theorem out_last (t : Fin cfg0.N) (h0 : ¬t.val % 8 = 0) (h1 : t.val % 8 = 7) (y : S3x1024.Idx) :
    (outsAt0 m c t.val t.isLt).1 y = max ((outsAt0 m c t.val t.isLt).2 y) Cert.Loss.floor := by
  rw [outsAt0_C m c t h0 h1]
  dsimp only
  exact last_out_lane c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2 y

end Cert.KernelIdeal.PointCases

end
-- ==== Proof.Accum.lean ====
/-
  The accumulator over the grid, and the array the region leaves.

  After point `t` (row tile `t / 8`, column tile `t % 8`) lane `r` of row `v` of the accumulator holds the sum of the
  first `t % 8 + 1` column tiles of the terms of view `v` and sample `1024 (t / 8) + r` (`acc_eq`, by induction on the
  point: a row tile's first point starts from zeros, every other point adds its tile to what the point before
  left). At a row tile's last point that is the whole row's sum, and the block written back is it kept above the
  floor: the denominators of samples `1024 (t / 8) … 1024 (t / 8) + 1023`. The eight written blocks tile the output
  array, which therefore ends holding the denominator of every view and sample (`final`).
-/
import proofs.«150340_j34299608826247_2_alg».proof.Proof.PointCases

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.RowUpdate Cert.KernelIdeal.Pieces Cert.KernelIdeal.Step
  Cert.KernelIdeal.Blocks Cert.KernelIdeal.Tile Cert.KernelIdeal.PointCases
open scoped BigOperators

variable (m : (ℓ : Loc nD τ sig) → Buf (Elt Ideal) ℓ) (c : Dev nD)

/-! ## The accumulator after each point -/

/-- The sum of the first `k` column tiles, of the arrays the region finds. -/
abbrev prefA (v : Fin 3) (n : Fin 8192) (k : ℕ) : EReal :=
  Cert.Loss.pref (V m c main_v5) (V m c main_v11) (V m c main_arg1) v n k

/-- A row tile's first point leaves the first tile. -/
theorem first_eq (t : Fin cfg0.N) (h0 : t.val % 8 = 0) (v : Fin 3) (r : Fin 1024) :
    (outsAt0 m c t.val t.isLt).2 (ix2 v r) = prefA m c v (rowOf t r) (t.val % 8 + 1) := by
  have h1 : ¬t.val % 8 = 7 := by omega
  refine (acc_first m c t h0 h1 v r).trans ((contrib_eq_tile m c t v r).trans ?_)
  show Cert.Loss.tile _ _ _ v _ (t.val % 8) = Cert.Loss.pref _ _ _ v _ (t.val % 8 + 1)
  rw [h0, Cert.Loss.pref_succ, Cert.Loss.pref_zero, zero_add]

theorem acc_eq : ∀ (n : ℕ) (hn : n < cfg0.N) (v : Fin 3) (r : Fin 1024),
    (outsAt0 m c n hn).2 (ix2 v r) = prefA m c v (rowOf ⟨n, hn⟩ r) (n % 8 + 1)
  | 0, hn, v, r => first_eq m c ⟨0, hn⟩ (Nat.zero_mod 8) v r
  | k + 1, hn, v, r => by
    have hN : cfg0.N = 64 := N_0
    by_cases h0 : (k + 1) % 8 = 0
    · exact first_eq m c ⟨k + 1, hn⟩ h0 v r
    · -- what the point before left, plus this point's tile
      have hk : k < cfg0.N := Nat.lt_of_succ_lt hn
      have ih := acc_eq k hk v r
      have hrow : rowOf ⟨k, hk⟩ r = rowOf ⟨k + 1, hn⟩ r := Fin.ext (by
        show k / 8 * 1024 + r.val = (k + 1) / 8 * 1024 + r.val
        omega)
      have hcnt : k % 8 + 1 = (k + 1) % 8 := by omega
      have hstep : (outsAt0 m c (k + 1) hn).2 (ix2 v r)
          = (outsAt0 m c k hk).2 (ix2 v r) + contribAt m c ⟨k + 1, hn⟩ v r := by
        by_cases h1 : (k + 1) % 8 = 7
        · exact acc_last m c ⟨k + 1, hn⟩ h0 h1 v r
        · exact acc_middle m c ⟨k + 1, hn⟩ h0 h1 v r
      have htile : contribAt m c ⟨k + 1, hn⟩ v r
          = Cert.Loss.tile (V m c main_v5) (V m c main_v11) (V m c main_arg1) v (rowOf ⟨k + 1, hn⟩ r) ((k + 1) % 8) :=
        contrib_eq_tile m c ⟨k + 1, hn⟩ v r
      rw [hstep, ih, htile, hrow, hcnt]
      exact (Cert.Loss.pref_succ _ _ _ v _ ((k + 1) % 8)).symm

/-! ## The array the region leaves -/

/-- The denominators, of the arrays the region finds. -/
abbrev denomA : S3x8192.Idx → EReal := Cert.Loss.denom (V m c main_v5) (V m c main_v11) (V m c main_arg1)

/-- A row tile's last point writes back the denominators of its 1024 samples: block `(0, t / 8)` of them. -/
theorem flushed_eq (t : Fin cfg0.N) (hf : (cfg0.win 3).flush t = true) :
    (dats m 0 c).flushed 3 t = ((cfg0.win 3).blk t).view.read (Elt Ideal) (denomA m c) := by
  have hN : cfg0.N = 64 := N_0
  have h7 : t.val % 8 = 7 := (flush0_3 t).mp hf
  have h0 : ¬t.val % 8 = 0 := by omega
  obtain ⟨-, -, -, -, -, -, -, e0, e1, -⟩ := idx_facts t
  show (cfg0.win 3).cut (grid0.coords t) ((dats m 0 c).after 3 t) = _
  rw [after0_3]
  funext y
  obtain ⟨v, r, rfl⟩ : ∃ (v : Fin 3) (r : Fin 1024), y = ix2 v r := ⟨y 0, y 1, eq_ix2 y⟩
  show (outsAt0 m c t.val t.isLt).1 (ix2 v r) = denomA m c (((cfg0.win 3).blk t).view.emb (ix2 v r))
  have hidx : ((cfg0.win 3).blk t).view.emb (ix2 v r) = ix2 v (rowOf t r) := funext fun a => Fin.ext (by
    match a with
    | ⟨0, _⟩ => show win0_3.index t (0 : Fin 2) * 3 + 1 * v.val = v.val; rw [e0]; omega
    | ⟨1, _⟩ => show win0_3.index t (1 : Fin 2) * 1024 + 1 * r.val = t.val / 8 * 1024 + r.val; rw [e1]; omega)
  rw [hidx]
  rw [out_last m c t h0 h7 (ix2 v r), acc_eq m c t.val t.isLt v r, h7]
  show max (Cert.Loss.pref _ _ _ v (rowOf t r) 8) Cert.Loss.floor = max (Cert.Loss.rowSum _ _ _ v (rowOf t r)) Cert.Loss.floor
  rw [Cert.Loss.rowSum_eq_pref]

/-- Every index of the output array is in the block some row tile's last point writes back. -/
theorem covered (i : S3x8192.Idx) :
    ∃ t : Fin cfg0.N, (cfg0.win 3).flush t = true ∧ i ∈ ((cfg0.win 3).blk t).view.set := by
  have hN : cfg0.N = 64 := N_0
  have hi0 : (i 0).val < 3 := (i 0).isLt
  have hi1 : (i 1).val < 8192 := (i 1).isLt
  let t : Fin cfg0.N := ⟨8 * ((i 1).val / 1024) + 7, by rw [hN]; omega⟩
  obtain ⟨-, -, -, -, -, -, -, e0, e1, -⟩ := idx_facts t
  have ht : t.val = 8 * ((i 1).val / 1024) + 7 := rfl
  refine ⟨t, (flush0_3 t).mpr (by rw [ht]; omega), ?_⟩
  show i ∈ ((View.whole main_v12).slice (win0_3.rect t)).set
  rw [View.set_slice_whole, Rect.mem_set_unit]
  intro a
  match a with
  | ⟨0, _⟩ =>
    show win0_3.index t (0 : Fin 2) * 3 ≤ (i 0).val ∧ (i 0).val < win0_3.index t (0 : Fin 2) * 3 + 3
    rw [e0]; omega
  | ⟨1, _⟩ =>
    show win0_3.index t (1 : Fin 2) * 1024 ≤ (i 1).val ∧ (i 1).val < win0_3.index t (1 : Fin 2) * 1024 + 1024
    rw [e1, ht]; omega

/-- THE OUTPUT ARRAY after the region: the denominator of every view and sample. -/
theorem final : (dats m 0 c).arrAt 3 cfg0.N = denomA m c :=
  (dats m 0 c).arrAt_eq_of_cover 3 (denomA m c) (flushed_eq m c) (covered)

end Cert.KernelIdeal.Accum

end
-- ==== Proof.Tail.lean ====
/-
  The last stage of the loss, as a function of the two arrays it is computed from: the positive `pos` and the denominator
  `den`, one number per view and sample. Each entry contributes `-(pos / (1/2) - log den)`; the loss is the sum of the
  contributions over all 3 · 8192 entries, started from the zero word, divided by the word of 24576.
-/
import proofs.«150340_j34299608826247_2_alg».proof.Proof.Gen.ReferenceIdeal.Read
import proofs.«150340_j34299608826247_2_alg».proof.Proof.Loss

noncomputable section

namespace Cert.Tail

open Cert.ReferenceIdeal Cert.ReferenceIdeal.Gen Idealize.ShloMosaic Idealize.ShloMosaic.TcCoe Idealize.SL.Sem Idealize.ShloMosaic.StableHlo

/-- The loss from the positives and the denominators. -/
def lossOf (pos den : (⟨S3x8192, .f32⟩ : BufTy).Contents (Elt Ideal)) : (⟨S_, .f32⟩ : BufTy).Contents (Elt Ideal) :=
  Host.divf
    (Host.reduceAdd
      (Host.negf (subf (Host.divf pos (broadcastInDim S3x8192 ![] bcast_S_S3x8192 (constant (F := Ideal) S_ .f32 0x3F000000#32)))
        (Host.log den)))
      (constant (F := Ideal) S_ .f32 0x00000000#32) reducesTo_S3x8192_S_d0_1 h_S_)
    (constant (F := Ideal) S_ .f32 0x46C00000#32)

/-- The reference program's result is the loss of its gathered diagonal and its denominator. -/
theorem ref_loss (x0 : (⟨S8192x128, .f32⟩ : BufTy).Contents (Elt Ideal)) (x1 : (⟨S8192x8192, .f32⟩ : BufTy).Contents (Elt Ideal))
    (x2 : (⟨S3x8192x128, .f32⟩ : BufTy).Contents (Elt Ideal)) :
    Read.val_main_v30 (F := Ideal) x0 x1 x2
      = lossOf (Read.val_main_v12 (F := Ideal) x0 x2) (Read.val_main_v25 (F := Ideal) x0 x1 x2) := rfl

end Cert.Tail

end
-- ==== Proof.KernelHost.lean ====
/-
  The kernel program's host side: what its entry function computes around the region.

  Before the region it normalises the consensus rows and the view rows exactly as the reference program does — the same
  operations on the same arguments — and converts them to a narrower format, which on extended reals is the identity; so
  the two arrays the region reads are the reference's normalised rows. After the region it widens the two arrays back
  (again the identity), multiplies each view row `(v, n)` with the consensus row `n` feature by feature and sums over the
  128 features from the zero word: the similarity of sample `n` with itself, the loss's positive. The rest of the last
  stretch is the loss's last stage applied to these positives and to the array the region wrote.
-/
import proofs.«150340_j34299608826247_2_alg».proof.Proof.Gen.KernelIdeal.Frame
import proofs.«150340_j34299608826247_2_alg».proof.Proof.Tail
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostSide

open Cert.KernelIdeal Cert.KernelIdeal.Gen Idealize.ShloMosaic Idealize.ShloMosaic.TcCoe Idealize.SL.Sem Idealize.ShloMosaic.StableHlo Idealize.ShloMosaic.ValueIdx
open scoped BigOperators

/-- The host's sum over the feature axis of a `[3, 8192, 128]` array, read at `(v, n)`: the zero word plus the sum over the
    128 features. -/
theorem rowsum_apply (y : FVec Ideal S3x8192x128 .f32) (v : Fin 3) (n : Fin 8192) :
    Host.reduceAdd y (constant (F := Ideal) S_ .f32 0x00000000#32) reducesTo_S3x8192x128_S3x8192_d2 h_S_ (ix2 v n)
      = ∑ d : Fin 128, y (ix3 v n d) := by
  simp only [Host.reduceAdd, Ideal.hostReduceAdd_def]
  rw [Ideal.hostReduceAdd_single reducesTo_S3x8192x128_S3x8192_d2 (by decide)]
  show Ideal.ofBits .f32 0x00000000#32 + _ = _
  rw [Ideal.ofBits_zero_f32, zero_add]
  refine Finset.sum_congr rfl fun d _ => ?_
  exact congrArg y (funext fun a => Fin.ext (by match a with | ⟨0, _⟩ => rfl | ⟨1, _⟩ => rfl | ⟨2, _⟩ => rfl))

/-- The kernel's own row inner product: at `(v, n)` the sum over the features `d` of the consensus row `n` times the view
    row `(v, n)`, started from the zero word — the similarity of sample `n` with itself. -/
theorem positive_eq (hc : FVec Ideal S8192x128 .bf16) (hv : FVec Ideal S3x8192x128 .bf16) :
    Host.reduceAdd (mulf (broadcastInDim S3x8192x128 ![0, 1, 2] bcast_S1x8192x128_S3x8192x128_0_1_2
        (broadcastInDim S1x8192x128 ![1, 2] bcast_S8192x128_S1x8192x128_1_2 (extf .f32 hc bitsLt_bf16_f32)))
        (extf .f32 hv bitsLt_bf16_f32)) (constant (F := Ideal) S_ .f32 0x00000000#32) reducesTo_S3x8192x128_S3x8192_d2 h_S_
      = Cert.Loss.positive hc hv := by
  funext i
  obtain ⟨v, n, rfl⟩ : ∃ (v : Fin 3) (n : Fin 8192), i = ix2 v n := ⟨i 0, i 1, eq_ix2 i⟩
  rw [rowsum_apply]
  unfold Cert.Loss.positive Cert.Loss.sim
  refine Finset.sum_congr rfl fun d _ => ?_
  rw [mulf_apply, extf_apply,
    broadcastInDim_apply _ bcast_S1x8192x128_S3x8192x128_0_1_2 _ (ix3 v n d) (ix3 (0 : Fin 1) n d) (fun a => match a with
      | ⟨0, _⟩ => by show 0 = if (1 : Nat) = 1 then 0 else v.val; rw [if_pos rfl]
      | ⟨1, _⟩ => by show n.val = if (8192 : Nat) = 1 then 0 else n.val; rw [if_neg (by decide)]
      | ⟨2, _⟩ => by show d.val = if (128 : Nat) = 1 then 0 else d.val; rw [if_neg (by decide)]),
    broadcastInDim_apply _ bcast_S8192x128_S1x8192x128_1_2 _ (ix3 (0 : Fin 1) n d) (ix2 n d) (fun a => match a with
      | ⟨0, _⟩ => by show n.val = if (8192 : Nat) = 1 then 0 else n.val; rw [if_neg (by decide)]
      | ⟨1, _⟩ => by show d.val = if (128 : Nat) = 1 then 0 else d.val; rw [if_neg (by decide)]),
    extf_apply]

section
variable (m : (ℓ : Loc nD τ sig) → Buf (Elt Ideal) ℓ) (c : Dev nD)

/-- The kernel's normalised consensus rows are the reference's function of the same argument: the same operations, and
    the conversion to the narrower format is the identity on extended reals. -/
theorem hc_eq :
    (V m c main_v5 : S8192x128.Idx → EReal)
      = Cert.ReferenceIdeal.Read.val_main_v4 (F := Ideal) (m ((c : Thread nD τ).loc main_arg0)) := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The same for the view rows. -/
theorem hv_eq :
    (V m c main_v11 : S3x8192x128.Idx → EReal)
      = Cert.ReferenceIdeal.Read.val_main_v9 (F := Ideal) (m ((c : Thread nD τ).loc main_arg2)) := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

end

section
variable (m : (ℓ : Loc nD τ sig) → Buf (Elt Ideal) ℓ) (c : Dev nD)

/-- What the program's last stretch leaves in its result: the loss of the kernel's own positives — the row inner products
    of the normalised rows the region was given — and of the array the region wrote. The two input arrays the last stretch
    reads are unchanged by the region; the output array is what the region left. -/
theorem tail_eq :
    Pipeline.afterTail₀ cfgs (dats m) 0 (V0 m) [hostOps1] c main_v25
      = Cert.Tail.lossOf (Cert.Loss.positive (V m c main_v5) (V m c main_v11)) ((dats m 0 c).arrAt 3 cfg0.N) := by
  unfold Pipeline.afterTail₀
  show StableHlo.after hostOps1 _ (Proc.devRef .tc main_v25) = _
  after_results
  have h5 : Pipeline.withArrays (cfgs 0).spec c (V0 m c) (fun w => (dats m 0 c).arrAt w (cfgs 0).N) (Proc.devRef .tc main_v5)
      = V m c main_v5 :=
    (Pipeline.withArrays_arr spec0 launch0.win.arr_inj c _ _ 0).trans (((dats m 0 c).arrAt_in 0 rfl _).trans (A_eq m c 0))
  have h11 : Pipeline.withArrays (cfgs 0).spec c (V0 m c) (fun w => (dats m 0 c).arrAt w (cfgs 0).N) (Proc.devRef .tc main_v11)
      = V m c main_v11 :=
    (Pipeline.withArrays_arr spec0 launch0.win.arr_inj c _ _ 2).trans (((dats m 0 c).arrAt_in 2 rfl _).trans (A_eq m c 2))
  have h12 : Pipeline.withArrays (cfgs 0).spec c (V0 m c) (fun w => (dats m 0 c).arrAt w (cfgs 0).N) (Proc.devRef .tc main_v12)
      = (dats m 0 c).arrAt 3 cfg0.N :=
    Pipeline.withArrays_arr spec0 launch0.win.arr_inj c _ _ 3
  rw [h5, h11, h12]
  exact congrArg (fun p => Cert.Tail.lossOf p ((dats m 0 c).arrAt 3 cfg0.N)) (positive_eq (V m c main_v5) (V m c main_v11))

end

end Cert.KernelIdeal.HostSide

end
-- ==== Proof.RefRead.lean ====
/-
  The reference program's side of the bridge: its similarity array, the diagonal it gathers, and its denominator are the
  quantities of the contrastive loss (module `Loss`) at the normalised rows the program computes.

  The program forms, for each view `v` and samples `m`, `n`, the inner product of the view row `(v, m)` with the
  consensus row `n`, and transposes the last two axes; since multiplication of extended reals is commutative the element
  `(v, n, m)` of the transposed array is the similarity `sim v n m`. The term `(1 - s n m) · exp (sim / (1/2))` is the
  loss's term because dividing by one half is doubling; the sum over `m` starts from the zero word, which denotes 0.
  The diagonal is a gather whose start indices are the pair `(n, n)` written as 32-bit words: a word of a number below
  8192 is not negative when read signed, so it is kept unchanged, reads back as `n`, and the clamp to `[0, 8191]` leaves it.
-/
import proofs.«150340_j34299608826247_2_alg».proof.Proof.Gen.ReferenceIdeal.Read
import proofs.«150340_j34299608826247_2_alg».proof.Proof.Loss
import Idealize.ShloMosaic.Lib.ValueIdx
import Idealize.ShloMosaic.Lib.Pipeline.Value
import Idealize.ShloMosaic.PureOps.Ideal.Laws
import Idealize.ShloMosaic.Lib.Affine

noncomputable section

namespace Cert.ReferenceIdeal.RefRead

open Cert.ReferenceIdeal Cert.ReferenceIdeal.Gen Cert.ReferenceIdeal.Read Idealize.ShloMosaic Idealize.ShloMosaic.ValueIdx
open scoped BigOperators

/-- The similarity array, read at an index. -/
theorem sim_apply (x0 : (⟨S8192x128, .f32⟩ : BufTy).Contents (Elt Ideal)) (x2 : (⟨S3x8192x128, .f32⟩ : BufTy).Contents (Elt Ideal))
    (v : Fin 3) (n m : Fin 8192) :
    Read.val_main_v11 (F := Ideal) x0 x2 (ix3 v n m)
      = Cert.Loss.sim (Read.val_main_v4 (F := Ideal) x0) (Read.val_main_v9 (F := Ideal) x2) v n m := by
  rw [val_main_v11_apply, val_main_v10_apply]
  generalize val_main_v4 (F := Ideal) x0 = hc
  generalize val_main_v9 (F := Ideal) x2 = hv
  unfold Cert.Loss.sim
  refine Finset.sum_congr rfl fun d _ => ?_
  rw [mul_comm]
  have e1 : ridx_main_v10 (idx_main_v11 (ix3 v n m)) d = ix2 n d :=
    funext fun a => Fin.ext (by match a with | ⟨0, _⟩ => rfl | ⟨1, _⟩ => rfl)
  have e2 : lidx_main_v10 (idx_main_v11 (ix3 v n m)) d = ix3 v m d :=
    funext fun a => Fin.ext (by match a with | ⟨0, _⟩ => rfl | ⟨1, _⟩ => rfl | ⟨2, _⟩ => rfl)
  rw [e1, e2]

/-- One term of the row's sum, read at an index. -/
theorem term_apply (x0 : (⟨S8192x128, .f32⟩ : BufTy).Contents (Elt Ideal)) (x1 : (⟨S8192x8192, .f32⟩ : BufTy).Contents (Elt Ideal))
    (x2 : (⟨S3x8192x128, .f32⟩ : BufTy).Contents (Elt Ideal)) (v : Fin 3) (n m : Fin 8192) :
    Read.val_main_v22 (F := Ideal) x0 x1 x2 (ix3 v n m)
      = Cert.Loss.term (Read.val_main_v4 (F := Ideal) x0) (Read.val_main_v9 (F := Ideal) x2) x1 v n m := by
  rw [val_main_v22_apply, val_main_v21_apply, val_main_v20_apply, val_main_v16_apply, val_main_v15_apply,
    val_main_cst_2_apply, val_main_v19_apply, val_main_v18_apply, val_main_v17_apply, val_main_cst_3_apply,
    sim_apply]
  generalize val_main_v4 (F := Ideal) x0 = hc
  generalize val_main_v9 (F := Ideal) x2 = hv
  have e : idx_main_v20 (idx_main_v21 (ix3 v n m)) = ix2 n m :=
    funext fun a => Fin.ext (by match a with | ⟨0, _⟩ => rfl | ⟨1, _⟩ => rfl)
  rw [e]
  unfold Cert.Loss.term
  rw [← Cert.Loss.div_half]
  rfl

/-- The denominator. -/
theorem denom_eq (x0 : (⟨S8192x128, .f32⟩ : BufTy).Contents (Elt Ideal)) (x1 : (⟨S8192x8192, .f32⟩ : BufTy).Contents (Elt Ideal))
    (x2 : (⟨S3x8192x128, .f32⟩ : BufTy).Contents (Elt Ideal)) :
    Read.val_main_v25 (F := Ideal) x0 x1 x2
      = Cert.Loss.denom (Read.val_main_v4 (F := Ideal) x0) (Read.val_main_v9 (F := Ideal) x2) x1 := by
  funext i
  obtain ⟨v, n, rfl⟩ : ∃ (v : Fin 3) (n : Fin 8192), i = ix2 v n := ⟨i 0, i 1, eq_ix2 i⟩
  rw [val_main_v25_apply, val_main_v24_apply, val_main_cst_5_apply, val_main_v23_apply, val_main_cst_4_apply]
  have e : ∀ m : Fin 8192, idx_main_v23 (ix2 v n) m = ix3 v n m := fun m =>
    funext fun a => Fin.ext (by match a with | ⟨0, _⟩ => rfl | ⟨1, _⟩ => rfl | ⟨2, _⟩ => rfl)
  simp only [e, term_apply]
  show max (Ideal.ofBits .f32 0x00000000#32 + _) _ = _
  rw [Ideal.ofBits_zero_f32, zero_add]
  rfl

/-- A number below 8192, written as a 32-bit word and read back signed, is itself. -/
theorem word_toInt {n : Nat} (h : n < 8192) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- Such a word is not negative, so the wrap-around of negative indices keeps it. -/
theorem word_wrap {n : Nat} (h : n < 8192) :
    Scalar.select (IntOp.cmpi .slt (BitVec.ofNat 32 n) 0#32) (IntOp.addi (BitVec.ofNat 32 n) 8192#32) (BitVec.ofNat 32 n)
      = BitVec.ofNat 32 n := by
  have hc : IntOp.cmpi .slt (BitVec.ofNat 32 n) 0#32 = 0#1 := by
    refine eq_zero_of_ne_one fun hh => ?_
    have := IntOp.cmpi_slt.mp hh
    rw [word_toInt h] at this
    have h0 : (0#32 : BitVec 32).toInt = 0 := by decide
    omega
  rw [hc, select_zero]

/-- Clamped to the last index it is still itself. -/
theorem word_clamp {n : Nat} (h : n < 8192) : min (BitVec.ofNat 32 n).toInt.toNat (8192 - 1) = n := by
  rw [word_toInt h, Int.toNat_natCast]
  omega

/-- Column 0 of the start indices: row `n` holds the word of `n`. -/
theorem starts_col0 (n : Fin 8192) :
    val_main_call2_v14 (F := Ideal) (ix2 n (0 : Fin 2)) = BitVec.ofNat 32 n.val := by
  unfold val_main_call2_v14
  rw [concatenate_pair_apply_left (1 : Fin S8192x2.rank) _ _ concatenates_S8192x1_S8192x1_S8192x2_d1
    (ix2 n (0 : Fin 2)) rfl (ix2 n (0 : Fin 1)) (fun b => by match b with | ⟨0, _⟩ => rfl | ⟨1, _⟩ => rfl)]
  rw [val_main_call2_v12_apply, val_main_call2_v6_apply, val_main_call2_v3_apply, val_main_call2_v5_apply,
    val_main_call2_v0_apply, val_main_call2_v2_apply, val_main_call2_c_apply, val_main_call2_v4_apply,
    val_main_call2_c_0_apply]
  exact word_wrap n.isLt

/-- Column 1 of the start indices: row `n` holds the word of `n` too. -/
theorem starts_col1 (n : Fin 8192) :
    val_main_call2_v14 (F := Ideal) (ix2 n (1 : Fin 2)) = BitVec.ofNat 32 n.val := by
  unfold val_main_call2_v14
  rw [concatenate_pair_apply_right (1 : Fin S8192x2.rank) _ _ concatenates_S8192x1_S8192x1_S8192x2_d1
    (ix2 n (1 : Fin 2)) rfl rfl (ix2 n (0 : Fin 1))
    (fun b hb => by match b with | ⟨0, _⟩ => rfl | ⟨1, _⟩ => exact absurd rfl hb) rfl]
  rw [val_main_call2_v13_apply, val_main_call2_v11_apply, val_main_call2_v8_apply, val_main_call2_v10_apply,
    val_main_call2_v1_apply, val_main_call2_v7_apply, val_main_call2_c_1_apply, val_main_call2_v9_apply,
    val_main_call2_c_2_apply]
  exact word_wrap n.isLt

/-- The gather's dimension numbers: offset axis 0, axes 1 and 2 collapsed and indexed by the two start-index columns. -/
abbrev gd : GatherDims S3x8192x8192 S8192x2 S3x8192 := gather_S3x8192x8192_S8192x2_S3x8192_0_12_n_n_12_1_311

/-- Axis 0 of the operand index is the offset axis: the result's view coordinate. -/
theorem gather_axis0 (idx : IVec S8192x2 32) (v : Fin 3) (n : Fin 8192) :
    (gd.operandIdx (ix2 v n) idx 0).val = v.val := by
  show gd.start (ix2 v n) idx 0 + gd.batchCoord (ix2 v n) 0 + gd.offCoord (ix2 v n) 0 = _
  rw [GatherDims.batchCoord_eq_zero _ _ _ (show ¬(0 : Fin S3x8192x8192.rank) ∈ gd.operandBatchingDims from List.not_mem_nil)]
  have hs : gd.start (ix2 v n) idx 0 = 0 := by
    unfold GatherDims.start
    rw [dif_neg (show ¬(0 : Fin S3x8192x8192.rank) ∈ gd.startIndexMap by decide)]
  have hk : (0 : Fin S3x8192x8192.rank) ∈ gd.sKept :=
    (GatherDims.mem_sKept _ _).mpr ⟨by decide, List.not_mem_nil⟩
  have ho : gd.offCoord (ix2 v n) 0 = v.val := by
    unfold GatherDims.offCoord
    rw [dif_pos hk]
    rfl
  rw [hs, ho]
  omega

/-- Axes 1 and 2 are collapsed and indexed: the coordinate is the clamped start index, read at row `n` and the axis's
    column of the start indices. -/
theorem gather_axis1 (idx : IVec S8192x2 32) (v : Fin 3) (n : Fin 8192) :
    (gd.operandIdx (ix2 v n) idx 1).val = min (idx (ix2 n (0 : Fin 2))).toInt.toNat (8192 - 1) := by
  show gd.start (ix2 v n) idx 1 + gd.batchCoord (ix2 v n) 1 + gd.offCoord (ix2 v n) 1 = _
  rw [GatherDims.batchCoord_eq_zero _ _ _ (show ¬(1 : Fin S3x8192x8192.rank) ∈ gd.operandBatchingDims from List.not_mem_nil),
    GatherDims.offCoord_eq_zero _ _ _ (fun h => ((GatherDims.mem_sKept _ _).mp h).1 (by decide))]
  simp only [Nat.add_zero]
  unfold GatherDims.start
  rw [dif_pos (show (1 : Fin S3x8192x8192.rank) ∈ gd.startIndexMap by decide)]
  have hsi : gd.siIdx (ix2 v n) ⟨List.idxOf (1 : Fin S3x8192x8192.rank) gd.startIndexMap,
      List.idxOf_lt_length_iff.2 (show (1 : Fin S3x8192x8192.rank) ∈ gd.startIndexMap by decide)⟩ = ix2 n (0 : Fin 2) := by
    funext b; refine Fin.ext ?_
    match b with
    | ⟨0, _⟩ => rfl
    | ⟨1, _⟩ => rfl
  rw [hsi]
  rfl

/-- The same on axis 2, from column 1. -/
theorem gather_axis2 (idx : IVec S8192x2 32) (v : Fin 3) (n : Fin 8192) :
    (gd.operandIdx (ix2 v n) idx 2).val = min (idx (ix2 n (1 : Fin 2))).toInt.toNat (8192 - 1) := by
  show gd.start (ix2 v n) idx 2 + gd.batchCoord (ix2 v n) 2 + gd.offCoord (ix2 v n) 2 = _
  rw [GatherDims.batchCoord_eq_zero _ _ _ (show ¬(2 : Fin S3x8192x8192.rank) ∈ gd.operandBatchingDims from List.not_mem_nil),
    GatherDims.offCoord_eq_zero _ _ _ (fun h => ((GatherDims.mem_sKept _ _).mp h).1 (by decide))]
  simp only [Nat.add_zero]
  unfold GatherDims.start
  rw [dif_pos (show (2 : Fin S3x8192x8192.rank) ∈ gd.startIndexMap by decide)]
  have hsi : gd.siIdx (ix2 v n) ⟨List.idxOf (2 : Fin S3x8192x8192.rank) gd.startIndexMap,
      List.idxOf_lt_length_iff.2 (show (2 : Fin S3x8192x8192.rank) ∈ gd.startIndexMap by decide)⟩ = ix2 n (1 : Fin 2) := by
    funext b; refine Fin.ext ?_
    match b with
    | ⟨0, _⟩ => rfl
    | ⟨1, _⟩ => rfl
  rw [hsi]
  rfl

/-- The gathered array is the diagonal of the similarity array. -/
theorem diag_apply (x0 : (⟨S8192x128, .f32⟩ : BufTy).Contents (Elt Ideal)) (x2 : (⟨S3x8192x128, .f32⟩ : BufTy).Contents (Elt Ideal))
    (v : Fin 3) (n : Fin 8192) :
    Read.val_main_v12 (F := Ideal) x0 x2 (ix2 v n) = Read.val_main_v11 (F := Ideal) x0 x2 (ix3 v n n) := by
  unfold val_main_v12
  generalize val_main_v11 (F := Ideal) x0 x2 = y
  show y (gd.operandIdx (ix2 v n) (val_main_call2_v14 (F := Ideal))) = y (ix3 v n n)
  refine congrArg y (funext fun a => Fin.ext ?_)
  match a with
  | ⟨0, _⟩ => exact gather_axis0 _ v n
  | ⟨1, _⟩ => exact (gather_axis1 _ v n).trans (by rw [starts_col0]; exact word_clamp n.isLt)
  | ⟨2, _⟩ => exact (gather_axis2 _ v n).trans (by rw [starts_col1]; exact word_clamp n.isLt)

/-- The positive: the gathered diagonal is the similarity of each sample with itself. -/
theorem positive_eq (x0 : (⟨S8192x128, .f32⟩ : BufTy).Contents (Elt Ideal)) (x2 : (⟨S3x8192x128, .f32⟩ : BufTy).Contents (Elt Ideal)) :
    Read.val_main_v12 (F := Ideal) x0 x2
      = Cert.Loss.positive (Read.val_main_v4 (F := Ideal) x0) (Read.val_main_v9 (F := Ideal) x2) := by
  funext i
  obtain ⟨v, n, rfl⟩ : ∃ (v : Fin 3) (n : Fin 8192), i = ix2 v n := ⟨i 0, i 1, eq_ix2 i⟩
  rw [diag_apply, sim_apply]
  rfl

end Cert.ReferenceIdeal.RefRead

end
-- ==== Proof.KernelRun.lean ====
/-
  The idealized kernel's run, read: its result is the loss of the positives and denominators of the row-normalised
  arguments.

  The region leaves the denominators in its output array (the accumulator over the grid); the host lines after it
  take the positives as row inner products of the same normalised arrays and finish the loss from the two. The
  normalised arrays the region finds are the reference's functions of the same arguments, so the result is one
  function `loss` of the three argument arrays — the function the reference's result is, too (`ref_eq`).
-/
import proofs.«150340_j34299608826247_2_alg».proof.Proof.Accum
import proofs.«150340_j34299608826247_2_alg».proof.Proof.KernelHost
import proofs.«150340_j34299608826247_2_alg».proof.Proof.RefRead

noncomputable section

open Idealize.ShloMosaic Idealize.ShloMosaic.TcCoe Idealize.SL.Sem

namespace Cert.Bridge

open Cert.ReferenceIdeal

/-- The loss as a function of the three argument arrays: normalise the consensus rows and the view rows, take the
    positives and the denominators, finish. -/
def loss (a0 : (⟨S8192x128, .f32⟩ : BufTy).Contents (Elt Ideal)) (a1 : (⟨S8192x8192, .f32⟩ : BufTy).Contents (Elt Ideal))
    (a2 : (⟨S3x8192x128, .f32⟩ : BufTy).Contents (Elt Ideal)) : (⟨S_, .f32⟩ : BufTy).Contents (Elt Ideal) :=
  Cert.Tail.lossOf
    (Cert.Loss.positive (Read.val_main_v4 (F := Ideal) a0) (Read.val_main_v9 (F := Ideal) a2))
    (Cert.Loss.denom (Read.val_main_v4 (F := Ideal) a0) (Read.val_main_v9 (F := Ideal) a2) a1)

/-- The reference's result is that function of its arguments: its gathered diagonal is the positives, its row sums
    kept above the floor the denominators. -/
theorem ref_eq (a0 : (⟨S8192x128, .f32⟩ : BufTy).Contents (Elt Ideal)) (a1 : (⟨S8192x8192, .f32⟩ : BufTy).Contents (Elt Ideal))
    (a2 : (⟨S3x8192x128, .f32⟩ : BufTy).Contents (Elt Ideal)) : Read.val_main_v30 (F := Ideal) a0 a1 a2 = loss a0 a1 a2 := by
  rw [Cert.Tail.ref_loss, Cert.ReferenceIdeal.RefRead.positive_eq, Cert.ReferenceIdeal.RefRead.denom_eq]
  rfl

end Cert.Bridge

namespace Cert.KernelIdeal.RunValue

open Cert.KernelIdeal Cert.KernelIdeal.Gen

variable (m : (ℓ : Loc nD τ sig) → Buf (Elt Ideal) ℓ) (ρ : Dev nD → PrngReg)

/-- What the host lines after the region leave in the result: the loss of the arguments. -/
theorem result_eq (c : Dev nD) :
    Pipeline.afterTail₀ cfgs (dats m) 0 (V0 m) [hostOps1] c main_v25
      = Cert.Bridge.loss (m ((c : Thread nD τ).loc main_arg0)) (m ((c : Thread nD τ).loc main_arg1)) (m ((c : Thread nD τ).loc main_arg2)) := by
  rw [Cert.KernelIdeal.HostSide.tail_eq m c, Cert.KernelIdeal.Accum.final m c]
  show Cert.Tail.lossOf (Cert.Loss.positive (V m c main_v5) (V m c main_v11))
      (Cert.Loss.denom (V m c main_v5) (V m c main_v11) (V m c main_arg1)) = _
  rw [Cert.KernelIdeal.HostSide.hc_eq m c, Cert.KernelIdeal.HostSide.hv_eq m c, V_main_arg1 m c]
  rfl

/-- THE RUN: every weakly fair execution terminates with the result at the loss of the arguments and the arguments
    unchanged. -/
theorem run : θ_run defs (onTc (τ := τ) (main (F := Ideal))) ⟨m, fun _ => 0, ρ⟩ (fun r => ∀ c : Dev nD,
      r.2.mem ((c.tc : Thread nD τ).loc main_v25)
        = Cert.Bridge.loss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RunValue

end
-- ==== Proof.lean ====
/-
  Two programs compute the same contrastive loss of a batch of 8192 samples seen in 3 views.

  Both normalise the rows of the consensus array and of the view array to unit length. For view `v` and samples `n`, `m`
  the similarity is the inner product of sample `n`'s consensus row with sample `m`'s row in view `v`; the positive of
  `(v, n)` is the similarity of `n` with itself; the denominator of `(v, n)` is the sum over all `m` of
  `(1 - S n m) · exp (similarity / (1/2))`, kept above a small floor; the loss is the mean over `(v, n)` of
  `-(positive / (1/2) - log denominator)`.

  The reference takes all similarities at once, reads the positives off their diagonal and sums each row whole. The
  kernel walks an 8 × 8 grid of 1024 × 1024 tiles of the weight matrix: for a tile it multiplies the tile's consensus
  rows with the tile's view rows, scales by 2, exponentiates, weights and sums along the tile's columns, and adds the
  result to an accumulator that it zeroes at a row tile's first column tile and writes out, kept above the floor, at
  its last; the positives it takes as row inner products outside the grid. Over the extended reals the two agree
  exactly: dividing by the word of 1/2 is multiplying by the word of 2 (`Cert.Loss.div_half`), products commute, and a
  row's sum is the sum of its eight tiles in order (`Cert.Loss.rowSum_eq_pref`) — none of which needs the inputs to be
  finite. A change of float format is the identity there, so the kernel's rows rounded to sixteen bits are the
  reference's rows.

  The three frames are the generated ones (the reference's is its generated run with the result dropped); the
  idealization rewrote nothing, so it preserves the kernel trivially.
-/
import proofs.«150340_j34299608826247_2_alg».proof.Defs
import proofs.«150340_j34299608826247_2_alg».proof.Proof.Gen.Kernel
import proofs.«150340_j34299608826247_2_alg».proof.Proof.Gen.Kernel.Skeleton
import proofs.«150340_j34299608826247_2_alg».proof.Proof.Gen.Kernel.Launch
import proofs.«150340_j34299608826247_2_alg».proof.Proof.Gen.Kernel.Points
import proofs.«150340_j34299608826247_2_alg».proof.Proof.Gen.Kernel.Frame
import proofs.«150340_j34299608826247_2_alg».proof.Proof.Gen.KernelIdeal
import proofs.«150340_j34299608826247_2_alg».proof.Proof.Gen.KernelIdeal.Skeleton
import proofs.«150340_j34299608826247_2_alg».proof.Proof.Gen.KernelIdeal.Launch
import proofs.«150340_j34299608826247_2_alg».proof.Proof.Gen.KernelIdeal.Points
import proofs.«150340_j34299608826247_2_alg».proof.Proof.Gen.KernelIdeal.Frame
import proofs.«150340_j34299608826247_2_alg».proof.Proof.Gen.ReferenceIdeal
import proofs.«150340_j34299608826247_2_alg».proof.Proof.Gen.ReferenceIdeal.Run
import proofs.«150340_j34299608826247_2_alg».proof.Proof.Gen.ReferenceIdeal.Read
import proofs.«150340_j34299608826247_2_alg».proof.Proof.Gen.Pre_finite_inputs
import proofs.«150340_j34299608826247_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `Cert.Bridge.loss` of the arguments, which agree. -/
theorem algebraic : Cert.algebraic_KernelIdeal_ReferenceIdeal := by
  intro m ρ m' ρ' _ hagree
  refine ⟨fun c => Cert.Bridge.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v30_eq (F := Ideal) _ _ _).trans (Cert.Bridge.ref_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
